-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x768x2048 : Shape := ⟨3, ![16, 768, 2048]⟩
abbrev S_ : Shape := ⟨0, ![]⟩

class Facts : Prop where
  bcast_S_S16x768x2048 : S_.BroadcastsInDim S16x768x2048 (![] : Fin 0 → Fin S16x768x2048.rank)
  reducesTo_S16x768x2048_S_d0_1_2 : S16x768x2048.ReducesTo [0, 1, 2] S_
  h_S_ : 0 < S_.numel

variable [Facts]

def fn_part1 {F : FTy → Type} [FloatOps F] (main_v13 : IVec S_ 1) (main_v16 : IVec S16x768x2048 1) : IVec S_ 1 :=
  let main_c_5 : IVec S_ 1 := constantI S_ 1 1#1
  let main_v17 : IVec S_ 1 := (fun x v => Host.reduce IntOp.andi x v reducesTo_S16x768x2048_S_d0_1_2 h_S_) main_v16 main_c_5
  let main_v18 : IVec S_ 1 := andi main_v13 main_v17
  main_v18

def fn {F : FTy → Type} [FloatOps F] (main_arg0 : FVec F S16x768x2048 .f32) (main_arg1 : FVec F S16x768x2048 .f32) (main_arg2 : FVec F S16x768x2048 .f32) (main_arg3 : FVec F S16x768x2048 .f32) : IVec S_ 1 :=
  let main_v0 : FVec F S16x768x2048 .f32 := Host.absf main_arg0
  let main_cst : FVec F S_ .f32 := constant S_ .f32 0x7F800000#32
  let main_v1 : FVec F S16x768x2048 .f32 := broadcastInDim S16x768x2048 ![] bcast_S_S16x768x2048 main_cst
  let main_v2 : IVec S16x768x2048 1 := cmpf .olt main_v0 main_v1
  let main_c : IVec S_ 1 := constantI S_ 1 1#1
  let main_v3 : IVec S_ 1 := (fun x v => Host.reduce IntOp.andi x v reducesTo_S16x768x2048_S_d0_1_2 h_S_) main_v2 main_c
  let main_v4 : FVec F S16x768x2048 .f32 := Host.absf main_arg1
  let main_cst_0 : FVec F S_ .f32 := constant S_ .f32 0x7F800000#32
  let main_v5 : FVec F S16x768x2048 .f32 := broadcastInDim S16x768x2048 ![] bcast_S_S16x768x2048 main_cst_0
  let main_v6 : IVec S16x768x2048 1 := cmpf .olt main_v4 main_v5
  let main_c_1 : IVec S_ 1 := constantI S_ 1 1#1
  let main_v7 : IVec S_ 1 := (fun x v => Host.reduce IntOp.andi x v reducesTo_S16x768x2048_S_d0_1_2 h_S_) main_v6 main_c_1
  let main_v8 : IVec S_ 1 := andi main_v3 main_v7
  let main_v9 : FVec F S16x768x2048 .f32 := Host.absf main_arg2
  let main_cst_2 : FVec F S_ .f32 := constant S_ .f32 0x7F800000#32
  let main_v10 : FVec F S16x768x2048 .f32 := broadcastInDim S16x768x2048 ![] bcast_S_S16x768x2048 main_cst_2
  let main_v11 : IVec S16x768x2048 1 := cmpf .olt main_v9 main_v10
  let main_c_3 : IVec S_ 1 := constantI S_ 1 1#1
  let main_v12 : IVec S_ 1 := (fun x v => Host.reduce IntOp.andi x v reducesTo_S16x768x2048_S_d0_1_2 h_S_) main_v11 main_c_3
  let main_v13 : IVec S_ 1 := andi main_v8 main_v12
  let main_v14 : FVec F S16x768x2048 .f32 := Host.absf main_arg3
  let main_cst_4 : FVec F S_ .f32 := constant S_ .f32 0x7F800000#32
  let main_v15 : FVec F S16x768x2048 .f32 := broadcastInDim S16x768x2048 ![] bcast_S_S16x768x2048 main_cst_4
  let main_v16 : IVec S16x768x2048 1 := cmpf .olt main_v14 main_v15
  fn_part1 (F := F) main_v13 main_v16
-- ==== Kernel.lean ====
abbrev S16x768x2048 : Shape := ⟨3, ![16, 768, 2048]⟩
abbrev S1x768x1024 : Shape := ⟨3, ![1, 768, 1024]⟩
abbrev S1x768x512 : Shape := ⟨3, ![1, 768, 512]⟩
abbrev S768x1024 : Shape := ⟨2, ![768, 1024]⟩
abbrev S1x1024 : Shape := ⟨2, ![1, 1024]⟩
abbrev S768x512 : Shape := ⟨2, ![768, 512]⟩
abbrev S512x1024 : Shape := ⟨2, ![512, 1024]⟩
abbrev S1024 : Shape := ⟨1, ![1024]⟩

abbrev nBuf : Space → Nat
  | .hbm => 5
  | .vmem => 13
  | .smem => 0
  | _ => 0

abbrev bufTy : (tb : Table) → Fin (tcTables nBuf tb) → BufTy
  | .hbm, ⟨0, _⟩ => ⟨S16x768x2048, .f32⟩
  | .hbm, ⟨1, _⟩ => ⟨S16x768x2048, .f32⟩
  | .hbm, ⟨2, _⟩ => ⟨S16x768x2048, .f32⟩
  | .hbm, ⟨3, _⟩ => ⟨S16x768x2048, .f32⟩
  | .hbm, ⟨4, _⟩ => ⟨S16x768x2048, .f32⟩
  | .local _ .vmem, ⟨0, _⟩ => ⟨S1x768x1024, .f32⟩
  | .local _ .vmem, ⟨1, _⟩ => ⟨S1x768x1024, .f32⟩
  | .local _ .vmem, ⟨2, _⟩ => ⟨S1x768x512, .f32⟩
  | .local _ .vmem, ⟨3, _⟩ => ⟨S1x768x512, .f32⟩
  | .local _ .vmem, ⟨4, _⟩ => ⟨S1x768x512, .f32⟩
  | .local _ .vmem, ⟨5, _⟩ => ⟨S1x768x512, .f32⟩
  | .local _ .vmem, ⟨6, _⟩ => ⟨S1x768x512, .f32⟩
  | .local _ .vmem, ⟨7, _⟩ => ⟨S1x768x512, .f32⟩
  | .local _ .vmem, ⟨8, _⟩ => ⟨S1x768x1024, .f32⟩
  | .local _ .vmem, ⟨9, _⟩ => ⟨S1x768x1024, .f32⟩
  | .local _ .vmem, ⟨10, _⟩ => ⟨S768x1024, .f32⟩
  | .local _ .vmem, ⟨11, _⟩ => ⟨S1x1024, .f32⟩
  | .local _ .vmem, ⟨12, _⟩ => ⟨S1x1024, .f32⟩
  | _, _ => ⟨S16x768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v47 : BitVec 1 := Scalar.cmpi .eq arg2 c3_i32
  let v48 : BitVec 32 := Scalar.extui v47
  let c0_i32_28 : BitVec 32 := 0#32
  let v49 : BitVec 1 := Scalar.cmpi .ne v48 c0_i32_28
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  bitsLt_bf16_f32 : FTy.bits .bf16 < FTy.bits .f32
  inb_S1x768x512_S1x768x512_0_0_0 : ∀ a, (![0, 0, 0] : Fin 3 → Nat) a + S1x768x512.size a ≤ S1x768x512.size a
  h_S1x768x512 : 0 < S1x768x512.numel
  shapeCasts_S1x768x512_S768x512 : S1x768x512.ShapeCasts S768x512
  reduces_S512x1024_S1024 : S512x1024.Reduces [0] S1024
  shapeCasts_S1024_S1x1024 : S1024.ShapeCasts S1x1024
  broadcasts_S1x1024_S512x1024 : S1x1024.Broadcasts S512x1024
  broadcasts_S1x1024_S768x1024 : S1x1024.Broadcasts S768x1024
  shapeCasts_S768x1024_S1x768x1024 : S768x1024.ShapeCasts S1x768x1024
  dot_S768x512_S768x1024_S512x1024_0_0_1_1_n_n_wf : DotDims.WF S768x512 S768x1024 S512x1024 [0] [0] [1] [1] [] []
  dot_S768x512_S512x1024_S768x1024_1_0_0_1_n_n_wf : DotDims.WF S768x512 S512x1024 S768x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x1024.size a ≤ S16x768x2048.size a
  hwx0_0 : ∀ i : grid0.Coords, EltTy.bits .f32 = 32 ∨ (Rect.block (s := S16x768x2048) S1x768x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x512.size a ≤ S16x768x2048.size a
  hwx0_1 : ∀ i : grid0.Coords, EltTy.bits .f32 = 32 ∨ (Rect.block (s := S16x768x2048) S1x768x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x768x512.size a ≤ S16x768x2048.size a
  hwx0_2 : ∀ i : grid0.Coords, EltTy.bits .f32 = 32 ∨ (Rect.block (s := S16x768x2048) S1x768x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x512.size a ≤ S16x768x2048.size a
  hwx0_3 : ∀ i : grid0.Coords, EltTy.bits .f32 = 32 ∨ (Rect.block (s := S16x768x2048) S1x768x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768x1024.size a ≤ S16x768x2048.size a
  hwx0_4 : ∀ i : grid0.Coords, EltTy.bits .f32 = 32 ∨ (Rect.block (s := S16x768x2048) S1x768x1024.size (cc0_transform_4 i) (hinb0_4 i)).WholeWords (EltTy.packing .f32)

variable [Facts₀]

def dot_S768x512_S768x1024_S512x1024_0_0_1_1_n_n : DotDims S768x512 S768x1024 S512x1024 where
  lhsContracting := [0]
  rhsContracting := [0]
  lhsNonContracting := [1]
  rhsNonContracting := [1]
  lhsBatch := []
  rhsBatch := []
  wf := dot_S768x512_S768x1024_S512x1024_0_0_1_1_n_n_wf
def dot_S768x512_S512x1024_S768x1024_1_0_0_1_n_n : DotDims S768x512 S512x1024 S768x1024 where
  lhsContracting := [1]
  rhsContracting := [0]
  lhsNonContracting := [0]
  rhsNonContracting := [1]
  lhsBatch := []
  rhsBatch := []
  wf := dot_S768x512_S512x1024_S768x1024_1_0_0_1_n_n_wf

abbrev win0_0 : Pipeline.Window sig grid0 :=
  Pipeline.Window.ofSpec (Memref.whole main_arg0) S1x768x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x768x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x768x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x768x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x768x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x768x2048 : Shape := ⟨3, ![16, 768, 2048]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x768x2048, .f32⟩
  | .hbm, ⟨1, _⟩ => ⟨S16x768x2048, .f32⟩
  | .hbm, ⟨2, _⟩ => ⟨S16x768x2048, .f32⟩
  | .hbm, ⟨3, _⟩ => ⟨S16x768x2048, .f32⟩
  | .hbm, ⟨4, _⟩ => ⟨S16x2048x2048, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x768x2048, .f32⟩
  | _, _ => ⟨S16x768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x768x2048_S16x768x2048_S16x2048x2048_1_1_2_2_0_0_wf : DotDims.WF S16x768x2048 S16x768x2048 S16x2048x2048 [1] [1] [2] [2] [0] [0]
  dot_S16x768x2048_S16x2048x2048_S16x768x2048_2_2_1_1_0_0_wf : DotDims.WF S16x768x2048 S16x2048x2048 S16x768x2048 [2] [2] [1] [1] [0] [0]

variable [Facts₀]

def dot_S16x768x2048_S16x768x2048_S16x2048x2048_1_1_2_2_0_0 : DotDims S16x768x2048 S16x768x2048 S16x2048x2048 where
  lhsContracting := [1]
  rhsContracting := [1]
  lhsNonContracting := [2]
  rhsNonContracting := [2]
  lhsBatch := [0]
  rhsBatch := [0]
  wf := dot_S16x768x2048_S16x768x2048_S16x2048x2048_1_1_2_2_0_0_wf
def dot_S16x768x2048_S16x2048x2048_S16x768x2048_2_2_1_1_0_0 : DotDims S16x768x2048 S16x2048x2048 S16x768x2048 where
  lhsContracting := [2]
  rhsContracting := [2]
  lhsNonContracting := [1]
  rhsNonContracting := [1]
  lhsBatch := [0]
  rhsBatch := [0]
  wf := dot_S16x768x2048_S16x2048x2048_S16x768x2048_2_2_1_1_0_0_wf

class Facts : Prop extends Facts₀ where

variable [Facts]
-- ==== Proof.Spec.lean ====
/-
  What both programs compute, as one function of the four argument arrays.

  The arrays are query, key, value and key positional term, each [16, 768, 2048] = [batch, hidden, position].
  For a batch b, a query position n and a key position m the SCORE is the real number

      score b n m = (∑ₕ q[b,h,n]·k[b,h,m] + ∑ₕ q[b,h,n]·pe[b,h,m]) · c,

  c the scale both programs carry as one and the same f32 word.  The result at (b, h, n) is the softmax-weighted
  mean of value row h over the key positions,

      attn b h n = (∑ₘ v[b,h,m]·exp(score b n m)) / (∑ₘ exp(score b n m)).

  A softmax is unchanged when one number is subtracted from every score of its row, so no row maximum appears here:
  each program subtracts its own, and both agree with this quotient.  The arrays enter through their real parts
  (`EReal.toReal`); under the certificate's precondition every entry is a real number and equals the coercion of
  its real part.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- An argument or result array: extended reals over [16, 768, 2048]. -/
abbrev Arr : Type := (⟨3, ![16, 768, 2048]⟩ : Shape).Idx → EReal

/-- Every entry is a real number: it is the coercion of its real part. -/
def AllReal (A : Arr) : Prop := ∀ i, ((A i).toReal : EReal) = A i

/-- The scale, the real number the f32 word 0x3D13CD3A denotes. -/
def scale : ℝ := (Ideal.ofBits .f32 0x3D13CD3A#32).toReal

/-- The score of query position `n` against key position `m` in batch `b`. -/
def score (Q K PE : Arr) (b : Fin 16) (n m : Fin 2048) : ℝ :=
  (∑ h : Fin 768, (Q (ix3 b h n)).toReal * (K (ix3 b h m)).toReal
    + ∑ h : Fin 768, (Q (ix3 b h n)).toReal * (PE (ix3 b h m)).toReal) * scale

/-- The softmax-weighted mean of value row `h` for query position `n` in batch `b`. -/
def attn (Q K V PE : Arr) (b : Fin 16) (h : Fin 768) (n : Fin 2048) : ℝ :=
  (∑ m : Fin 2048, (V (ix3 b h m)).toReal * Real.exp (score Q K PE b n m))
    / ∑ m : Fin 2048, Real.exp (score Q K PE b n m)

/-- The result array. -/
def G (Q K V PE : Arr) : Arr := fun i => ((attn Q K V PE (i 0) (i 1) (i 2) : ℝ) : EReal)

theorem G_apply (Q K V PE : Arr) (b : Fin 16) (h : Fin 768) (n : Fin 2048) :
    G Q K V PE (ix3 b h n) = ((attn Q K V PE b h n : ℝ) : EReal) := rfl

/-- The scale word denotes a real number. -/
theorem ofBits_scale : Ideal.ofBits .f32 0x3D13CD3A#32 = ((scale : ℝ) : EReal) := by
  have h : ∃ r : ℝ, Ideal.ofBits .f32 0x3D13CD3A#32 = (r : EReal) :=
    ⟨9686330 * (2 ^ 28)⁻¹, by simp [Ideal.ofBits, Ideal.ieee]⟩
  obtain ⟨r, hr⟩ := h
  unfold scale
  rw [hr, EReal.toReal_coe]

/-- The word 0xFF800000 denotes −∞, the bottom of the extended reals. -/
theorem ofBits_neg_inf : Ideal.ofBits .f32 0xFF800000#32 = (⊥ : EReal) := by
  simp [Ideal.ofBits, Ideal.ieee]

end Cert.Attn

end
-- ==== Proof.RefLaw.lean ====
/-
  Three facts about real numbers inside the extended reals, over an arbitrary finite index set.

  * The coercion ℝ → [-∞, +∞] commutes with a finite sum.
  * The maximum of a NONEMPTY finite family of real numbers, accumulated from -∞, is again a real number
    (each step is the maximum of two reals, and the first step absorbs the -∞).
  * A softmax-weighted mean is unchanged when one number a is subtracted from every score:
    exp (s - a) = exp s · exp (-a), and the positive factor exp (-a) cancels between the numerator
    and the normalising sum.  The left side is written the way a program computes it, each weight being
    exp (s m - a) times the reciprocal of the sum of the shifted exponentials.
-/
import proofs.«138610_j63754494542004_2_alg».proof.Proof.Spec

namespace Cert.Attn.Ref

/-- The coercion of a finite sum of reals is the sum of the coercions. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The coercion of the larger of two reals is the larger of the coercions. -/
theorem coe_max (x y : ℝ) : ((max x y : ℝ) : EReal) = max (x : EReal) (y : EReal) :=
  EReal.coe_strictMono.monotone.map_max

/-- A maximum accumulated from -∞ over a nonempty finite family of reals is a real.  The operation is any
    function that agrees with `max` (a program's maximum is one). -/
theorem fold_max_real {ι : Type*} (op : EReal → EReal → EReal) [Std.Commutative op] [Std.Associative op]
    (hop : ∀ x y, op x y = max x y) (s : Finset ι) (hs : s.Nonempty) (f : ι → ℝ) :
    ∃ a : ℝ, s.fold op ⊥ (fun i => (f i : EReal)) = (a : EReal) := by
  induction hs using Finset.Nonempty.cons_induction with
  | singleton a => exact ⟨f a, by rw [Finset.fold_singleton, hop, max_bot_right]⟩
  | cons a s ha hs ih =>
    obtain ⟨r, hr⟩ := ih
    exact ⟨max (f a) r, by rw [Finset.fold_cons, hr, hop, coe_max]⟩

/-- The sum of exponentials over a nonempty finite set is positive. -/
theorem sum_exp_pos {ι : Type*} [Fintype ι] [Nonempty ι] (s : ι → ℝ) : 0 < ∑ k, Real.exp (s k) :=
  Finset.sum_pos (fun k _ => Real.exp_pos _) Finset.univ_nonempty

/-- Subtracting one number from every score leaves the softmax-weighted mean unchanged. -/
theorem softmax_shift {ι : Type*} [Fintype ι] [Nonempty ι] (v s : ι → ℝ) (a : ℝ) :
    ∑ m, v m * (Real.exp (s m - a) * (1 / ∑ k, Real.exp (s k - a)))
      = (∑ m, v m * Real.exp (s m)) / ∑ m, Real.exp (s m) := by
  have hpos : 0 < ∑ k, Real.exp (s k) := sum_exp_pos s
  have he : Real.exp (-a) ≠ 0 := (Real.exp_pos _).ne'
  have hden : ∑ k, Real.exp (s k - a) = (∑ k, Real.exp (s k)) * Real.exp (-a) := by
    rw [Finset.sum_mul]
    exact Finset.sum_congr rfl fun k _ => by rw [sub_eq_add_neg, Real.exp_add]
  rw [hden, Finset.sum_div]
  refine Finset.sum_congr rfl fun m _ => ?_
  rw [sub_eq_add_neg, Real.exp_add]
  field_simp

end Cert.Attn.Ref
-- ==== Proof.RefSide.lean ====
/-
  The reference program computes the specification's softmax-weighted mean, when every input is a real number.

  Read one element at a time, the reference does this.  For a batch b, a query position n and a key position m it
  forms the score  s(m) = (∑ₕ q[b,h,n]·k[b,h,m] + ∑ₕ q[b,h,n]·pe[b,h,m]) · c,  a real number because it is a finite
  sum of products of reals times a real constant.  It takes the maximum a of the row s(·) starting from -∞; the row
  is nonempty, so a is a real number (its value is never needed).  It forms e(m) = exp (s(m) - a), a positive real,
  the row sum σ = 0 + ∑ₘ e(m), a positive real, the weight w(m) = e(m) / σ, which is e(m) times the reciprocal of σ
  since σ ≠ 0, and finally ∑ₘ v[b,h,m] · w(m).  The shift by a cancels between e(m) and σ, which leaves
  (∑ₘ v[b,h,m]·exp s(m)) / ∑ₘ exp s(m), the specification.
-/
import proofs.«138610_j63754494542004_2_alg».proof.Proof.Gen.ReferenceIdeal.Read
import proofs.«138610_j63754494542004_2_alg».proof.Proof.RefLaw

noncomputable section

namespace Cert.Attn.Ref

open Cert.ReferenceIdeal Cert.ReferenceIdeal.Gen Cert.ReferenceIdeal.Read Idealize.ShloMosaic Idealize.ShloMosaic.ValueIdx

/-- The scaled score at (b, n, m) is the coercion of the specification's score. -/
theorem score_stage (Q K PE : Arr) (hQ : AllReal Q) (hK : AllReal K) (hPE : AllReal PE)
    (b : Fin 16) (n m : Fin 2048) :
    val_main_v4 (F := Ideal) Q K PE (ix3 b n m) = ((score Q K PE b n m : ℝ) : EReal) := by
  have el0 : ∀ k : Fin 768, lidx_main_v0 (ix3 b n m) k = ix3 b k n := fun k =>
    funext fun a => Fin.ext (by match a with | ⟨0, _⟩ => rfl | ⟨1, _⟩ => rfl | ⟨2, _⟩ => rfl)
  have er0 : ∀ k : Fin 768, ridx_main_v0 (ix3 b n m) k = ix3 b k m := fun k =>
    funext fun a => Fin.ext (by match a with | ⟨0, _⟩ => rfl | ⟨1, _⟩ => rfl | ⟨2, _⟩ => rfl)
  have el1 : ∀ k : Fin 768, lidx_main_v1 (ix3 b n m) k = ix3 b k n := fun k =>
    funext fun a => Fin.ext (by match a with | ⟨0, _⟩ => rfl | ⟨1, _⟩ => rfl | ⟨2, _⟩ => rfl)
  have er1 : ∀ k : Fin 768, ridx_main_v1 (ix3 b n m) k = ix3 b k m := fun k =>
    funext fun a => Fin.ext (by match a with | ⟨0, _⟩ => rfl | ⟨1, _⟩ => rfl | ⟨2, _⟩ => rfl)
  rw [val_main_v4_apply, val_main_v2_apply, val_main_v0_apply, val_main_v1_apply, val_main_v3_apply,
    val_main_cst_apply]
  simp only [Ideal.mulf_def, Ideal.addf_def, Ideal.ofBits_def, el0, er0, el1, er1]
  rw [ofBits_scale]
  unfold score
  rw [EReal.coe_mul, EReal.coe_add, coe_sum, coe_sum]
  simp only [EReal.coe_mul, hQ _, hK _, hPE _]

/-- The row maximum the reference subtracts is a real number. -/
theorem rowmax_real (Q K PE : Arr) (hQ : AllReal Q) (hK : AllReal K) (hPE : AllReal PE) (j : S16x2048.Idx) :
    ∃ a : ℝ, val_main_v7 (F := Ideal) Q K PE j = (a : EReal) := by
  have hred : S16x2048x2048.Reduces [2] S16x2048 := by decide
  have h5 : ∃ a : ℝ, val_main_v5 (F := Ideal) Q K PE j = (a : EReal) := by
    unfold val_main_v5
    rw [Host.reduce_eq_fold_single FloatOps.maximumf _ _ reducesTo_S16x2048x2048_S16x2048_d2 hred h_S_ j,
      val_main_cst_0_apply, Ideal.ofBits_def, ofBits_neg_inf]
    have hf : (val_main_v4 (F := Ideal) Q K PE ∘ hred.lift j)
        = fun k => ((score Q K PE (hred.lift j k 0) (hred.lift j k 1) (hred.lift j k 2) : ℝ) : EReal) := by
      funext k
      exact (congrArg (val_main_v4 (F := Ideal) Q K PE) (eq_ix3 (hred.lift j k))).trans
        (score_stage Q K PE hQ hK hPE _ _ _)
    rw [hf]
    have hne : (Finset.univ : Finset (Fin (S16x2048x2048.size 2))).Nonempty := ⟨⟨0, by decide⟩, Finset.mem_univ _⟩
    exact fold_max_real (FloatOps.maximumf (F := Ideal) (φ := .f32)) (fun _ _ => rfl) _ hne _
  obtain ⟨a, ha⟩ := h5
  refine ⟨a, ?_⟩
  rw [val_main_v7_apply, val_main_v6_apply, val_main_cst_1_apply, Ideal.maximumf_def, Ideal.ofBits_def,
    ofBits_neg_inf, ha, max_bot_left]

/-- The row maximum of batch `b` and query position `n`, as a real number. -/
def rowMax (Q K PE : Arr) (b : Fin 16) (n : Fin 2048) : ℝ :=
  (val_main_v7 (F := Ideal) Q K PE (ix2 b n)).toReal

theorem rowmax_stage (Q K PE : Arr) (hQ : AllReal Q) (hK : AllReal K) (hPE : AllReal PE)
    (b : Fin 16) (n : Fin 2048) :
    val_main_v7 (F := Ideal) Q K PE (ix2 b n) = ((rowMax Q K PE b n : ℝ) : EReal) := by
  obtain ⟨a, ha⟩ := rowmax_real Q K PE hQ hK hPE (ix2 b n)
  rw [rowMax, ha, EReal.toReal_coe]

/-- The shifted exponential at (b, n, m). -/
theorem exp_stage (Q K PE : Arr) (hQ : AllReal Q) (hK : AllReal K) (hPE : AllReal PE)
    (b : Fin 16) (n m : Fin 2048) :
    val_main_v11 (F := Ideal) Q K PE (ix3 b n m)
      = ((Real.exp (score Q K PE b n m - rowMax Q K PE b n) : ℝ) : EReal) := by
  have e9 : idx_main_v8 (idx_main_v9 (ix3 b n m)) = ix2 b n :=
    funext fun a => Fin.ext (by match a with | ⟨0, _⟩ => rfl | ⟨1, _⟩ => rfl)
  rw [val_main_v11_apply, val_main_v10_apply, val_main_v9_apply, val_main_v8_apply, e9,
    score_stage Q K PE hQ hK hPE, rowmax_stage Q K PE hQ hK hPE, Ideal.hostUnary_exp_def, Ideal.subf_def,
    ← EReal.coe_sub, Ideal.exp_coe]

/-- The row sum of the shifted exponentials at (b, n). -/
theorem sum_stage (Q K PE : Arr) (hQ : AllReal Q) (hK : AllReal K) (hPE : AllReal PE)
    (b : Fin 16) (n : Fin 2048) :
    val_main_v12 (F := Ideal) Q K PE (ix2 b n)
      = ((∑ m : Fin 2048, Real.exp (score Q K PE b n m - rowMax Q K PE b n) : ℝ) : EReal) := by
  have e12 : ∀ k : Fin 2048, idx_main_v12 (ix2 b n) k = ix3 b n k := fun k =>
    funext fun a => Fin.ext (by match a with | ⟨0, _⟩ => rfl | ⟨1, _⟩ => rfl | ⟨2, _⟩ => rfl)
  rw [val_main_v12_apply, val_main_cst_2_apply, Ideal.ofBits_def, Ideal.ofBits_zero_f32, zero_add, coe_sum]
  exact Finset.sum_congr rfl fun k _ => by rw [e12, exp_stage Q K PE hQ hK hPE]

/-- The softmax weight at (b, n, m): the shifted exponential times the reciprocal of the row sum. -/
theorem weight_stage (Q K PE : Arr) (hQ : AllReal Q) (hK : AllReal K) (hPE : AllReal PE)
    (b : Fin 16) (n m : Fin 2048) :
    val_main_v15 (F := Ideal) Q K PE (ix3 b n m)
      = ((Real.exp (score Q K PE b n m - rowMax Q K PE b n)
          * (1 / ∑ k : Fin 2048, Real.exp (score Q K PE b n k - rowMax Q K PE b n)) : ℝ) : EReal) := by
  have e14 : idx_main_v13 (idx_main_v14 (ix3 b n m)) = ix2 b n :=
    funext fun a => Fin.ext (by match a with | ⟨0, _⟩ => rfl | ⟨1, _⟩ => rfl)
  haveI : Nonempty (Fin 2048) := ⟨⟨0, by decide⟩⟩
  rw [val_main_v15_apply, val_main_v14_apply, val_main_v13_apply, e14, exp_stage Q K PE hQ hK hPE,
    sum_stage Q K PE hQ hK hPE, Ideal.hostDivf_def,
    Ideal.div_coe (sum_exp_pos fun k => score Q K PE b n k - rowMax Q K PE b n).ne', ← EReal.coe_mul]

/-- The reference's result is the specification's array. -/
theorem ref_is_G (Q K V PE : Arr) (hQ : AllReal Q) (hK : AllReal K) (hV : AllReal V) (hPE : AllReal PE) :
    val_main_v16 (F := Ideal) Q K V PE = G Q K V PE := by
  funext i
  obtain ⟨b, h, n, rfl⟩ : ∃ (b : Fin 16) (h : Fin 768) (n : Fin 2048), i = ix3 b h n :=
    ⟨i 0, i 1, i 2, eq_ix3 i⟩
  have el : ∀ k : Fin 2048, lidx_main_v16 (ix3 b h n) k = ix3 b h k := fun k =>
    funext fun a => Fin.ext (by match a with | ⟨0, _⟩ => rfl | ⟨1, _⟩ => rfl | ⟨2, _⟩ => rfl)
  have er : ∀ k : Fin 2048, ridx_main_v16 (ix3 b h n) k = ix3 b n k := fun k =>
    funext fun a => Fin.ext (by match a with | ⟨0, _⟩ => rfl | ⟨1, _⟩ => rfl | ⟨2, _⟩ => rfl)
  haveI : Nonempty (Fin 2048) := ⟨⟨0, by decide⟩⟩
  rw [val_main_v16_apply, G_apply, attn,
    ← softmax_shift (fun m => (V (ix3 b h m)).toReal) (fun m => score Q K PE b n m) (rowMax Q K PE b n), coe_sum]
  refine Finset.sum_congr rfl fun k _ => ?_
  rw [el, er, weight_stage Q K PE hQ hK hPE, EReal.coe_mul (V (ix3 b h k)).toReal, hV]

end Cert.Attn.Ref

end
-- ==== Proof.Finite.lean ====
/-
  The certificate's precondition says that every entry of each of the four argument arrays has absolute value
  strictly below +∞.  On the extended reals the absolute value of x is max x (−x); it is +∞ exactly when x is +∞
  or −∞.  So an entry satisfying the precondition is neither infinity, hence a real number, and equals the coercion
  of its real part.  The precondition is a conjunction of four "for all entries" tests, each a reduction by "and"
  of a one-bit comparison array over all three axes; the conjunction being 1 makes every conjunct 1, and a
  reduction by "and" being 1 makes every reduced bit 1.
-/
import proofs.«138610_j63754494542004_2_alg».proof.Proof.Gen.Pre_finite_inputs
import proofs.«138610_j63754494542004_2_alg».proof.Proof.Spec
import Idealize.ShloMosaic.Lib.ReduceAll

noncomputable section

namespace Cert.Attn

open Idealize.ShloMosaic Idealize.ShloMosaic.ValueIdx
open Cert.Pre_finite_inputs

/-- The rank-0 shape has a single index. -/
instance subsingleton_scalar_idx : Subsingleton S_.Idx := ⟨fun a b => funext fun d => d.elim0⟩

/-- The word 0x7F800000 denotes +∞, the top of the extended reals. -/
theorem ofBits_pos_inf : Ideal.ofBits .f32 0x7F800000#32 = (⊤ : EReal) := by
  simp [Ideal.ofBits, Ideal.ieee]

/-- An extended real whose absolute value max x (−x) lies strictly below +∞ is a real number. -/
theorem coe_toReal_of_abs_lt_top (x : EReal) (h : max x (-x) < ⊤) : ((x.toReal : ℝ) : EReal) = x := by
  induction x using EReal.rec with
  | bot => simp at h
  | top => simp at h
  | coe r => rfl

/-- One "all entries have absolute value below +∞" test being 1 makes the array all real. -/
theorem allReal_of_all (x : Arr) (init : S_.Idx → BitVec 1)
    (e : Host.reduce IntOp.andi
          (cmpf .olt (Host.absf (F := Ideal) (s := S16x768x2048) (φ := .f32) x)
            (broadcastInDim S16x768x2048 ![] Facts.bcast_S_S16x768x2048 (constant (F := Ideal) S_ .f32 0x7F800000#32)))
          init Facts.reducesTo_S16x768x2048_S_d0_1_2 Facts.h_S_ ix0 = 1#1) :
    AllReal x := by
  intro i
  have hi := Host.reduce_andi_all _ init Facts.reducesTo_S16x768x2048_S_d0_1_2 Facts.h_S_ ix0 e i
  apply coe_toReal_of_abs_lt_top
  have hb : broadcastInDim S16x768x2048 ![] Facts.bcast_S_S16x768x2048 (constant (F := Ideal) S_ .f32 0x7F800000#32) i
      = (⊤ : EReal) := by
    rw [← ofBits_pos_inf]; rfl
  have hc : Ideal.cmp .olt (max (x i) (-(x i))) (⊤ : EReal) = 1#1 := by
    rw [← hb]; exact hi
  unfold Ideal.cmp at hc
  by_contra hn
  simp [hn] at hc

theorem allReal_of_pre (x0 x1 x2 x3 : Arr)
    (h : Cert.Pre_finite_inputs.fn (F := Ideal) x0 x1 x2 x3 = fun _ => 1#1) :
    AllReal x0 ∧ AllReal x1 ∧ AllReal x2 ∧ AllReal x3 := by
  have e := congrFun h ix0
  dsimp only [Cert.Pre_finite_inputs.fn, Cert.Pre_finite_inputs.fn_part1, andi] at e
  obtain ⟨e012, e3⟩ := IntOp.andi_eq_one.1 e
  obtain ⟨e01, e2⟩ := IntOp.andi_eq_one.1 e012
  obtain ⟨e0, e1⟩ := IntOp.andi_eq_one.1 e01
  exact ⟨allReal_of_all x0 _ e0, allReal_of_all x1 _ e1, allReal_of_all x2 _ e2, allReal_of_all x3 _ e3⟩

end Cert.Attn

end
-- ==== Proof.Claims.lean ====
/-
  The certificate's five claims, assembled from their parts.

  The three frame claims are the generated runs: the kernel's and its idealization's frames as they stand, and the
  reference's run with its result dropped.  The idealization rewrote nothing, so there is nothing to preserve.

  The algebraic claim.  Under the precondition every entry of the four argument arrays is a real number.  At the
  ideal instance the kernel's run ends with its result array equal to the specification's softmax-weighted mean of
  its own arguments, and with the arguments unchanged: that is taken here as a hypothesis.  The reference's run ends
  with its result array equal to the composition of its operations applied to ITS arguments, which is the same
  softmax-weighted mean of those arguments because they are all real; and the two programs' arguments agree.  So
  both results are one and the same array, the specification's, of the kernel's arguments.
-/
import proofs.«138610_j63754494542004_2_alg».proof.Defs
import proofs.«138610_j63754494542004_2_alg».proof.Proof.Gen.Kernel.Frame
import proofs.«138610_j63754494542004_2_alg».proof.Proof.Gen.KernelIdeal.Frame
import proofs.«138610_j63754494542004_2_alg».proof.Proof.Gen.ReferenceIdeal.Run
import proofs.«138610_j63754494542004_2_alg».proof.Proof.Gen.ReferenceIdeal.Read
import proofs.«138610_j63754494542004_2_alg».proof.Proof.Gen.Pre_finite_inputs
import proofs.«138610_j63754494542004_2_alg».proof.Proof.Gen.Kernel
import proofs.«138610_j63754494542004_2_alg».proof.Proof.Gen.KernelIdeal
import proofs.«138610_j63754494542004_2_alg».proof.Proof.Gen.ReferenceIdeal
import proofs.«138610_j63754494542004_2_alg».proof.Proof.RefSide
import proofs.«138610_j63754494542004_2_alg».proof.Proof.Finite

noncomputable section

namespace Cert.Proof.Claims

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- What the kernel's run at the ideal instance has to establish: from any memory of which the precondition holds,
    every execution ends with the result array equal to the specification's array of the four arguments
    (query, key, value, key positional term, in that order) and with the arguments unchanged. -/
abbrev KernelRun : Prop :=
  ∀ (m : (ℓ : Loc Cert.KernelIdeal.nD Cert.KernelIdeal.τ Cert.KernelIdeal.sig) → Buf (Elt Ideal) ℓ) (ρ : Dev Cert.KernelIdeal.nD → PrngReg),
    Cert.Pre_KernelIdeal m →
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v0)
            = Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
                (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

/-- Both programs end with the specification's array of the kernel's arguments. -/
theorem algebraic_of (hk : KernelRun) : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), hk m ρ hpre, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.Attn.allReal_of_pre _ _ _ _ (hpre c)
  rw [Cert.ReferenceIdeal.Read.val_main_v16_eq, (hagree c).1, (hagree c).2.1, (hagree c).2.2.1, (hagree c).2.2.2]
  exact Cert.Attn.Ref.ref_is_G _ _ _ _ h0 h1 h2 h3

/-- The five claims behind the witnesses of the programs' stated facts. -/
theorem claim_of (hk : KernelRun) : Cert.Claim :=
  ⟨Cert.Kernel.Gen.facts, Cert.KernelIdeal.Gen.facts, Cert.ReferenceIdeal.Gen.facts, Cert.Pre_finite_inputs.Gen.facts,
    frame_k, frame_ki, frame_ri, preserves, algebraic_of hk⟩

end Cert.Proof.Claims

end
-- ==== Proof.Pieces.lean ====
/-
  What one grid point leaves behind, read off the kernel body's stores.

  The body keeps three buffers across the four key blocks of one (batch, query block): the running row maximum m
  [1,1024], the running denominator l [1,1024] and the running numerator acc [768,1024].  At every point it stores
  new values of all three, each a pure function of the point's four input blocks and of what the buffers held:

      m'   = max(m, column maximum of the score tile)
      l'   = exp(m − m')·l + column sums of exp(score − m')
      acc' = acc·exp(m − m') + (value block)·exp(score − m')

  At the first key block the buffers are first reset (m to −∞, l and acc to 0), and the three stores read those
  reset values; at the last key block the quotient acc'/l' is also stored into the output block.  Each lemma below
  says that what a case leaves in a buffer is the corresponding payload of the body applied to the point's blocks.
-/
import proofs.«138610_j63754494542004_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg3 : Memref sig .tc .vmem S1x768x1024 .f32) (harg3 : arg3.IsWhole) (arg4 : Memref sig .tc .vmem S1x768x512 .f32) (harg4 : arg4.IsWhole) (arg5 : Memref sig .tc .vmem S1x768x512 .f32) (harg5 : arg5.IsWhole) (arg6 : Memref sig .tc .vmem S1x768x512 .f32) (harg6 : arg6.IsWhole) (arg7 : Memref sig .tc .vmem S1x768x1024 .f32) (harg7 : arg7.IsWhole) (arg8 : Memref sig .tc .vmem S768x1024 .f32) (harg8 : arg8.IsWhole) (arg9 : Memref sig .tc .vmem S1x1024 .f32) (harg9 : arg9.IsWhole) (arg10 : Memref sig .tc .vmem S1x1024 .f32) (harg10 : arg10.IsWhole)
variable (x0 : Vec F S1x768x1024 .f32) (x1 : Vec F S1x768x512 .f32) (x2 : Vec F S1x768x512 .f32) (x3 : Vec F S1x768x512 .f32) (xs0 : Vec F S768x1024 .f32) (xs1 : Vec F S1x1024 .f32) (xs2 : Vec F S1x1024 .f32)

/-! ## A middle key block: the three buffers updated from what they held -/

theorem accB (hc0 : ¬cond0_0 i) (hc1 : ¬cond0_1 i) :
    sout0_B_0 c i arg3 harg3 arg4 harg4 arg5 harg5 arg6 harg6 arg7 harg7 arg8 harg8 arg9 harg9 arg10 harg10 hc0 hc1 x0 x1 x2 x3 xs0 xs1 xs2
      = k0_pay2 (k0_pay8 x3) (k0_pay11 x0 x1 x2 xs1) (k0_pay12 x0 x1 x2 xs1) xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S768x1024) hz2, View.ld_unit_zero (S := S1x1024) hz2, View.ld_unit_zero (S := S1x768x1024) hz3, View.ld_unit_zero (S := S1x768x512) hz3]

theorem maxB (hc0 : ¬cond0_0 i) (hc1 : ¬cond0_1 i) :
    sout0_B_1 c i arg3 harg3 arg4 harg4 arg5 harg5 arg6 harg6 arg7 harg7 arg8 harg8 arg9 harg9 arg10 harg10 hc0 hc1 x0 x1 x2 x3 xs0 xs1 xs2
      = k0_pay3 (k0_pay10 x0 x1 x2 xs1) := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S768x1024) hz2, View.ld_unit_zero (S := S1x1024) hz2, View.ld_unit_zero (S := S1x768x1024) hz3, View.ld_unit_zero (S := S1x768x512) hz3]

theorem denB (hc0 : ¬cond0_0 i) (hc1 : ¬cond0_1 i) :
    sout0_B_2 c i arg3 harg3 arg4 harg4 arg5 harg5 arg6 harg6 arg7 harg7 arg8 harg8 arg9 harg9 arg10 harg10 hc0 hc1 x0 x1 x2 x3 xs0 xs1 xs2
      = k0_pay1 (k0_pay13 x0 x1 x2 xs1 xs2) := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S768x1024) hz2, View.ld_unit_zero (S := S1x1024) hz2, View.ld_unit_zero (S := S1x768x1024) hz3, View.ld_unit_zero (S := S1x768x512) hz3]

/-! ## The last key block: the same updates, and the quotient stored into the output block -/

theorem accC (hc0 : ¬cond0_0 i) (hc1 : cond0_1 i) :
    sout0_C_0 c i arg3 harg3 arg4 harg4 arg5 harg5 arg6 harg6 arg7 harg7 arg8 harg8 arg9 harg9 arg10 harg10 hc0 hc1 x0 x1 x2 x3 xs0 xs1 xs2
      = k0_pay2 (k0_pay8 x3) (k0_pay11 x0 x1 x2 xs1) (k0_pay12 x0 x1 x2 xs1) xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S768x1024) hz2, View.ld_unit_zero (S := S1x1024) hz2, View.ld_unit_zero (S := S1x768x1024) hz3, View.ld_unit_zero (S := S1x768x512) hz3]

theorem maxC (hc0 : ¬cond0_0 i) (hc1 : cond0_1 i) :
    sout0_C_1 c i arg3 harg3 arg4 harg4 arg5 harg5 arg6 harg6 arg7 harg7 arg8 harg8 arg9 harg9 arg10 harg10 hc0 hc1 x0 x1 x2 x3 xs0 xs1 xs2
      = k0_pay3 (k0_pay10 x0 x1 x2 xs1) := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S768x1024) hz2, View.ld_unit_zero (S := S1x1024) hz2, View.ld_unit_zero (S := S1x768x1024) hz3, View.ld_unit_zero (S := S1x768x512) hz3]

theorem denC (hc0 : ¬cond0_0 i) (hc1 : cond0_1 i) :
    sout0_C_2 c i arg3 harg3 arg4 harg4 arg5 harg5 arg6 harg6 arg7 harg7 arg8 harg8 arg9 harg9 arg10 harg10 hc0 hc1 x0 x1 x2 x3 xs0 xs1 xs2
      = k0_pay1 (k0_pay13 x0 x1 x2 xs1 xs2) := by
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, View.ld_unit_zero (S := S768x1024) hz2, View.ld_unit_zero (S := S1x1024) hz2, View.ld_unit_zero (S := S1x768x1024) hz3, View.ld_unit_zero (S := S1x768x512) hz3]

theorem outC (hc0 : ¬cond0_0 i) (hc1 : cond0_1 i) :
    out0_C_4 c i arg3 harg3 arg4 harg4 arg5 harg5 arg6 harg6 arg7 harg7 arg8 harg8 arg9 harg9 arg10 harg10 hc0 hc1 x0 x1 x2 x3 xs0 xs1 xs2
      = k0_pay4 (k0_pay2 (k0_pay8 x3) (k0_pay11 x0 x1 x2 xs1) (k0_pay12 x0 x1 x2 xs1) xs0) (k0_pay1 (k0_pay13 x0 x1 x2 xs1 xs2)) := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz3]
  simp only [View.readCov_unit_zero (S := S768x1024) _ hz2, View.readCov_unit_zero (S := S1x1024) _ hz2]
  simp only [View.readAt_eq_ld, harg3.read_unread, harg4.read_unread, harg5.read_unread, harg6.read_unread, harg7.read_unread, harg8.read_unread, harg9.read_unread, harg10.read_unread, View.ld_unit_zero (S := S768x1024) hz2, View.ld_unit_zero (S := S1x1024) hz2, View.ld_unit_zero (S := S1x768x1024) hz3, View.ld_unit_zero (S := S1x768x512) hz3]

/-! ## The first key block: the updates read the reset values -/

theorem accA (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3
      = k0_pay2 (k0_pay8 x3) (k0_pay11 x0 x1 x2 k0_pay6) (k0_pay12 x0 x1 x2 k0_pay6) k0_pay5 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S768x1024) hz2]
  simp only [View.readCov_unit_zero (S := S768x1024) _ hz2, View.readCov_unit_zero (S := S1x1024) _ hz2]
  simp only [View.readAt_eq_ld, harg3.read_unread, harg4.read_unread, harg5.read_unread, harg6.read_unread, harg7.read_unread, harg8.read_unread, harg9.read_unread, harg10.read_unread, View.ld_unit_zero (S := S768x1024) hz2, View.ld_unit_zero (S := S1x1024) hz2, View.ld_unit_zero (S := S1x768x1024) hz3, View.ld_unit_zero (S := S1x768x512) hz3]

theorem maxA (hc0 : cond0_0 i) (hc1 : ¬cond0_1 i) :
    sout0_A_1 c i arg3 harg3 arg4 harg4 arg5 harg5 arg6 harg6 arg7 harg7 arg8 harg8 arg9 harg9 arg10 harg10 hc0 hc1 x0 x1 x2 x3
      = k0_pay3 (k0_pay10 x0 x1 x2 k0_pay6) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x1024) hz2]
  simp only [View.readCov_unit_zero (S := S768x1024) _ hz2, View.readCov_unit_zero (S := S1x1024) _ hz2]
  simp only [View.readAt_eq_ld, harg3.read_unread, harg4.read_unread, harg5.read_unread, harg6.read_unread, harg7.read_unread, harg8.read_unread, harg9.read_unread, harg10.read_unread, View.ld_unit_zero (S := S768x1024) hz2, View.ld_unit_zero (S := S1x1024) hz2, View.ld_unit_zero (S := S1x768x1024) hz3, View.ld_unit_zero (S := S1x768x512) hz3]

theorem denA (hc0 : cond0_0 i) (hc1 : ¬cond0_1 i) :
    sout0_A_2 c i arg3 harg3 arg4 harg4 arg5 harg5 arg6 harg6 arg7 harg7 arg8 harg8 arg9 harg9 arg10 harg10 hc0 hc1 x0 x1 x2 x3
      = k0_pay1 (k0_pay13 x0 x1 x2 k0_pay6 k0_pay7) := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x1024) hz2]
  simp only [View.readCov_unit_zero (S := S768x1024) _ hz2, View.readCov_unit_zero (S := S1x1024) _ hz2]
  simp only [View.readAt_eq_ld, harg3.read_unread, harg4.read_unread, harg5.read_unread, harg6.read_unread, harg7.read_unread, harg8.read_unread, harg9.read_unread, harg10.read_unread, View.ld_unit_zero (S := S768x1024) hz2, View.ld_unit_zero (S := S1x1024) hz2, View.ld_unit_zero (S := S1x768x1024) hz3, View.ld_unit_zero (S := S1x768x512) hz3]

end Cert.KernelIdeal.Pieces
end
-- ==== Proof.Payloads.lean ====
/-
  The kernel body's arithmetic, read entry by entry over the extended reals.

  At one grid point the body sees a query block [768,1024], a key block, a positional block and a value block
  [768,512], and the three running buffers.  Each pure value it stores is read here at an index:
  the score tile (key k, query q) = ∑ₕ (key + positional)[h,k]·(query[h,q]·scale); the column maximum of the tile;
  the new running maximum; the factor exp(old − new); the exponentials exp(score − new); the new denominator
  factor·old + their column sums; the new numerator old·factor + ∑ₖ value[h,k]·exponential[k,q]; the quotient
  numerator/denominator; and the reset values 0, −∞, 0.  A change of float format is the identity here, a matrix
  product into a zero accumulator is the plain sum over the contracted axis, a reduction along the key axis of the
  tile is a sum or a maximum over its 512 rows.
-/
import proofs.«138610_j63754494542004_2_alg».proof.Proof.Gen.KernelIdeal.Skeleton
import proofs.«138610_j63754494542004_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Pay
open Cert.KernelIdeal Cert.KernelIdeal.Gen

/-! ## The score tile: the first matrix product -/

theorem d1_lhs_0 (i : S512x1024.Idx) (p : dot_S768x512_S768x1024_S512x1024_0_0_1_1_n_n.contr.Idx) : (dot_S768x512_S768x1024_S512x1024_0_0_1_1_n_n.lhsIdx i p 0).val = (p ⟨0, by decide⟩).val :=
  dot_S768x512_S768x1024_S512x1024_0_0_1_1_n_n.lhsIdx_val_of_single rfl i p
theorem d1_lhs_1 (i : S512x1024.Idx) (p : dot_S768x512_S768x1024_S512x1024_0_0_1_1_n_n.contr.Idx) : (dot_S768x512_S768x1024_S512x1024_0_0_1_1_n_n.lhsIdx i p 1).val = (i 0).val := by
  unfold DotDims.lhsIdx
  rw [dif_neg (show ¬(1 : Fin S768x512.rank) ∈ dot_S768x512_S768x1024_S512x1024_0_0_1_1_n_n.lhsBatch by decide), dif_pos (show (1 : Fin S768x512.rank) ∈ dot_S768x512_S768x1024_S512x1024_0_0_1_1_n_n.lhsNonContracting by decide)]
  rfl
theorem d1_rhs_0 (i : S512x1024.Idx) (p : dot_S768x512_S768x1024_S512x1024_0_0_1_1_n_n.contr.Idx) : (dot_S768x512_S768x1024_S512x1024_0_0_1_1_n_n.rhsIdx i p 0).val = (p ⟨0, by decide⟩).val :=
  dot_S768x512_S768x1024_S512x1024_0_0_1_1_n_n.rhsIdx_val_of_single rfl i p
theorem d1_rhs_1 (i : S512x1024.Idx) (p : dot_S768x512_S768x1024_S512x1024_0_0_1_1_n_n.contr.Idx) : (dot_S768x512_S768x1024_S512x1024_0_0_1_1_n_n.rhsIdx i p 1).val = (i 1).val := by
  unfold DotDims.rhsIdx
  rw [dif_neg (show ¬(1 : Fin S768x1024.rank) ∈ dot_S768x512_S768x1024_S512x1024_0_0_1_1_n_n.rhsBatch by decide), dif_pos (show (1 : Fin S768x1024.rank) ∈ dot_S768x512_S768x1024_S512x1024_0_0_1_1_n_n.rhsNonContracting by decide)]
  rfl

/-- One entry of the score tile: key k of the key block against query q of the query block,
    ∑ₕ (key + positional term)[h,k] · (query[h,q] · scale). -/
def tile (x0 : Vec Ideal S1x768x1024 .f32) (x1 x2 : Vec Ideal S1x768x512 .f32) (k : Fin 512) (q : Fin 1024) : EReal :=
  ∑ h : Fin 768, (x1 (ix3 (0 : Fin 1) h k) + x2 (ix3 (0 : Fin 1) h k)) * (x0 (ix3 (0 : Fin 1) h q) * Ideal.ofBits .f32 0x3D13CD3A#32)

theorem pay9_apply (x0 : Vec Ideal S1x768x1024 .f32) (x1 x2 : Vec Ideal S1x768x512 .f32) (k : Fin 512) (q : Fin 1024) :
    k0_pay9 (F := Ideal) x0 x1 x2 (ix2 k q) = tile x0 x1 x2 k q := by
  unfold k0_pay9
  simp only [matmul]
  rw [Ideal.matmul_constant_zero_apply, ← Equiv.sum_comp (ValueIdx.contrEquiv1 dot_S768x512_S768x1024_S512x1024_0_0_1_1_n_n 768 rfl rfl).symm]
  unfold tile
  refine Finset.sum_congr rfl fun h _ => ?_
  have hk := ValueIdx.contrEquiv1_symm_val dot_S768x512_S768x1024_S512x1024_0_0_1_1_n_n 768 rfl rfl h
  have el : dot_S768x512_S768x1024_S512x1024_0_0_1_1_n_n.lhsIdx (ix2 k q) ((ValueIdx.contrEquiv1 dot_S768x512_S768x1024_S512x1024_0_0_1_1_n_n 768 rfl rfl).symm h) = ix2 h k := funext fun a => Fin.ext (by
    match a with
    | ⟨0, _⟩ => exact (d1_lhs_0 _ _).trans hk
    | ⟨1, _⟩ => exact d1_lhs_1 _ _)
  have er : dot_S768x512_S768x1024_S512x1024_0_0_1_1_n_n.rhsIdx (ix2 k q) ((ValueIdx.contrEquiv1 dot_S768x512_S768x1024_S512x1024_0_0_1_1_n_n 768 rfl rfl).symm h) = ix2 h q := funext fun a => Fin.ext (by
    match a with
    | ⟨0, _⟩ => exact (d1_rhs_0 _ _).trans hk
    | ⟨1, _⟩ => exact d1_rhs_1 _ _)
  rw [el, er]
  rw [truncf_apply, truncf_apply, addf_apply, mulf_apply, shapeCast_1ab_ab_apply, shapeCast_1ab_ab_apply, shapeCast_1ab_ab_apply]
  rfl

/-! ## The column maximum, the rescaling factor, the exponentials, the denominator -/

theorem lift_eq (q : Fin 1024) (k : Fin 512) : reduces_S512x1024_S1024.lift (ix1 q) k = ix2 k q :=
  funext fun a => Fin.ext (by match a with | ⟨0, _⟩ => rfl | ⟨1, _⟩ => rfl)

/-- The maximum of column q of the score tile, taken from −∞. -/
def tileMax (x0 : Vec Ideal S1x768x1024 .f32) (x1 x2 : Vec Ideal S1x768x512 .f32) (q : Fin 1024) : EReal :=
  (Finset.univ : Finset (Fin 512)).fold max (Ideal.ofBits .f32 0xFF800000#32) (fun k => tile x0 x1 x2 k q)

/-- A maximum down the 512 rows of a [512,1024] tile, from −∞, at column q. -/
theorem colMax_single (src : FVec Ideal S512x1024 .f32) (hφ : FKind.Formats .f32)
    (hacc : (0xFF800000#32 : BitVec 32) = FKind.maximumf.neutral .f32 hφ) (q : Fin 1024) :
    multiReduction .maximumf [0] S1024 src 0xFF800000#32 reduces_S512x1024_S1024 hφ hacc (ix1 q)
      = (Finset.univ : Finset (Fin 512)).fold max (Ideal.ofBits .f32 0xFF800000#32) (fun k => src (ix2 k q)) := by
  refine (Ideal.multiReduction_maximumf_single src _ reduces_S512x1024_S1024 hφ hacc (ix1 q)).trans ?_
  show (Finset.univ : Finset (Fin 512)).fold max (Ideal.ofBits .f32 0xFF800000#32) (fun k => src (reduces_S512x1024_S1024.lift (ix1 q) k)) = _
  exact congrArg (fun f => (Finset.univ : Finset (Fin 512)).fold max (Ideal.ofBits .f32 0xFF800000#32) f)
    (funext fun k => congrArg src (lift_eq q k))

/-- A sum down the 512 rows of a [512,1024] tile at column q. -/
theorem colSum_single (src : FVec Ideal S512x1024 .f32) (hφ : FKind.Formats .f32)
    (hacc : (0x00000000#32 : BitVec 32) = FKind.add.neutral .f32 hφ) (q : Fin 1024) :
    multiReduction .add [0] S1024 src 0x00000000#32 reduces_S512x1024_S1024 hφ hacc (ix1 q) = ∑ k : Fin 512, src (ix2 k q) := by
  refine (Ideal.multiReduction_add_single src _ reduces_S512x1024_S1024 hφ hacc (ix1 q)).trans ?_
  show ∑ k : Fin 512, src (reduces_S512x1024_S1024.lift (ix1 q) k) = _
  exact Finset.sum_congr rfl fun k _ => congrArg src (lift_eq q k)

variable (x0 : Vec Ideal S1x768x1024 .f32) (x1 x2 x3 : Vec Ideal S1x768x512 .f32) (m0 l0 : Vec Ideal S1x1024 .f32)

/-- The new running maximum: max(old, column maximum). -/
theorem pay10_apply (q : Fin 1024) :
    k0_pay10 (F := Ideal) x0 x1 x2 m0 (ix2 (0 : Fin 1) q) = max (m0 (ix2 (0 : Fin 1) q)) (tileMax x0 x1 x2 q) := by
  unfold k0_pay10
  rw [maximumf_apply, shapeCast_a_1a_apply]
  refine congrArg (max _) ((colMax_single _ _ _ q).trans ?_)
  simp only [pay9_apply]
  rfl

/-- The rescaling factor exp(old maximum − new maximum). -/
theorem pay11_apply (q : Fin 1024) :
    k0_pay11 (F := Ideal) x0 x1 x2 m0 (ix2 (0 : Fin 1) q)
      = Ideal.exp (m0 (ix2 (0 : Fin 1) q) - k0_pay10 (F := Ideal) x0 x1 x2 m0 (ix2 (0 : Fin 1) q)) := rfl

/-- The exponentials exp(score − new maximum). -/
theorem pay12_apply (k : Fin 512) (q : Fin 1024) :
    k0_pay12 (F := Ideal) x0 x1 x2 m0 (ix2 k q)
      = Ideal.exp (tile x0 x1 x2 k q - k0_pay10 (F := Ideal) x0 x1 x2 m0 (ix2 (0 : Fin 1) q)) := by
  unfold k0_pay12
  show Ideal.exp (k0_pay9 (F := Ideal) x0 x1 x2 (ix2 k q) - broadcastTo S512x1024 (k0_pay10 (F := Ideal) x0 x1 x2 m0) broadcasts_S1x1024_S512x1024 (ix2 k q)) = _
  rw [broadcastTo_1b_ab_apply, pay9_apply]

/-- The new running denominator: factor · old + column sums of the exponentials. -/
theorem pay13_apply (q : Fin 1024) :
    k0_pay13 (F := Ideal) x0 x1 x2 m0 l0 (ix2 (0 : Fin 1) q)
      = k0_pay11 (F := Ideal) x0 x1 x2 m0 (ix2 (0 : Fin 1) q) * l0 (ix2 (0 : Fin 1) q)
        + ∑ k : Fin 512, k0_pay12 (F := Ideal) x0 x1 x2 m0 (ix2 k q) := by
  unfold k0_pay13
  rw [addf_apply, mulf_apply, shapeCast_a_1a_apply]
  exact congrArg (_ + ·) (colSum_single _ _ _ q)

/-! ## The numerator: the second matrix product -/

theorem d2_lhs_0 (i : S768x1024.Idx) (p : dot_S768x512_S512x1024_S768x1024_1_0_0_1_n_n.contr.Idx) : (dot_S768x512_S512x1024_S768x1024_1_0_0_1_n_n.lhsIdx i p 0).val = (i 0).val := by
  unfold DotDims.lhsIdx
  rw [dif_neg (show ¬(0 : Fin S768x512.rank) ∈ dot_S768x512_S512x1024_S768x1024_1_0_0_1_n_n.lhsBatch by decide), dif_pos (show (0 : Fin S768x512.rank) ∈ dot_S768x512_S512x1024_S768x1024_1_0_0_1_n_n.lhsNonContracting by decide)]
  rfl
theorem d2_lhs_1 (i : S768x1024.Idx) (p : dot_S768x512_S512x1024_S768x1024_1_0_0_1_n_n.contr.Idx) : (dot_S768x512_S512x1024_S768x1024_1_0_0_1_n_n.lhsIdx i p 1).val = (p ⟨0, by decide⟩).val :=
  dot_S768x512_S512x1024_S768x1024_1_0_0_1_n_n.lhsIdx_val_of_single rfl i p
theorem d2_rhs_0 (i : S768x1024.Idx) (p : dot_S768x512_S512x1024_S768x1024_1_0_0_1_n_n.contr.Idx) : (dot_S768x512_S512x1024_S768x1024_1_0_0_1_n_n.rhsIdx i p 0).val = (p ⟨0, by decide⟩).val :=
  dot_S768x512_S512x1024_S768x1024_1_0_0_1_n_n.rhsIdx_val_of_single rfl i p
theorem d2_rhs_1 (i : S768x1024.Idx) (p : dot_S768x512_S512x1024_S768x1024_1_0_0_1_n_n.contr.Idx) : (dot_S768x512_S512x1024_S768x1024_1_0_0_1_n_n.rhsIdx i p 1).val = (i 1).val := by
  unfold DotDims.rhsIdx
  rw [dif_neg (show ¬(1 : Fin S512x1024.rank) ∈ dot_S768x512_S512x1024_S768x1024_1_0_0_1_n_n.rhsBatch by decide), dif_pos (show (1 : Fin S512x1024.rank) ∈ dot_S768x512_S512x1024_S768x1024_1_0_0_1_n_n.rhsNonContracting by decide)]
  rfl

/-- The value block as the matrix product takes it. -/
theorem pay8_apply (h : Fin 768) (k : Fin 512) : k0_pay8 (F := Ideal) x3 (ix2 h k) = x3 (ix3 (0 : Fin 1) h k) := by
  unfold k0_pay8
  rw [truncf_apply, shapeCast_1ab_ab_apply]

/-- The new running numerator: old · factor + (values)·(exponentials). -/
theorem pay2_apply (v16 : FVec Ideal S768x512 .bf16) (v23 : FVec Ideal S1x1024 .f32) (v26 : FVec Ideal S512x1024 .f32) (v36 : Vec Ideal S768x1024 .f32)
    (h : Fin 768) (q : Fin 1024) :
    k0_pay2 (F := Ideal) v16 v23 v26 v36 (ix2 h q)
      = v36 (ix2 h q) * v23 (ix2 (0 : Fin 1) q) + ∑ k : Fin 512, v16 (ix2 h k) * v26 (ix2 k q) := by
  unfold k0_pay2
  rw [shapeCast_self, addf_apply, mulf_apply, broadcastTo_1b_ab_apply]
  simp only [matmul]
  rw [Ideal.matmul_constant_zero_apply, ← Equiv.sum_comp (ValueIdx.contrEquiv1 dot_S768x512_S512x1024_S768x1024_1_0_0_1_n_n 512 rfl rfl).symm]
  refine congrArg (_ + ·) (Finset.sum_congr rfl fun k _ => ?_)
  have hk := ValueIdx.contrEquiv1_symm_val dot_S768x512_S512x1024_S768x1024_1_0_0_1_n_n 512 rfl rfl k
  have el : dot_S768x512_S512x1024_S768x1024_1_0_0_1_n_n.lhsIdx (ix2 h q) ((ValueIdx.contrEquiv1 dot_S768x512_S512x1024_S768x1024_1_0_0_1_n_n 512 rfl rfl).symm k) = ix2 h k := funext fun a => Fin.ext (by
    match a with
    | ⟨0, _⟩ => exact d2_lhs_0 _ _
    | ⟨1, _⟩ => exact (d2_lhs_1 _ _).trans hk)
  have er : dot_S768x512_S512x1024_S768x1024_1_0_0_1_n_n.rhsIdx (ix2 h q) ((ValueIdx.contrEquiv1 dot_S768x512_S512x1024_S768x1024_1_0_0_1_n_n 512 rfl rfl).symm k) = ix2 k q := funext fun a => Fin.ext (by
    match a with
    | ⟨0, _⟩ => exact (d2_rhs_0 _ _).trans hk
    | ⟨1, _⟩ => exact d2_rhs_1 _ _)
  rw [el, er, truncf_apply]

/-! ## The stores that only re-lay or reset -/

theorem pay1_eq (v : FVec Ideal S1x1024 .f32) : k0_pay1 (F := Ideal) v = v := by unfold k0_pay1; exact shapeCast_self _ _
theorem pay3_eq (v : FVec Ideal S1x1024 .f32) : k0_pay3 (F := Ideal) v = v := by unfold k0_pay3; exact shapeCast_self _ _

/-- The quotient stored into the output block. -/
theorem pay4_apply (v50 : Vec Ideal S768x1024 .f32) (v51 : Vec Ideal S1x1024 .f32) (h : Fin 768) (q : Fin 1024) :
    k0_pay4 (F := Ideal) v50 v51 (ix3 (0 : Fin 1) h q) = Ideal.div (v50 (ix2 h q)) (v51 (ix2 (0 : Fin 1) q)) := by
  unfold k0_pay4
  rw [shapeCast_ab_1ab_apply, divf_apply, broadcastTo_1b_ab_apply]

/-- The reset values: numerator 0, maximum −∞, denominator 0. -/
theorem pay5_apply (i : S768x1024.Idx) : k0_pay5 (F := Ideal) i = 0 := by
  unfold k0_pay5; rw [shapeCast_self]; exact Ideal.ofBits_zero_f32
theorem pay6_apply (i : S1x1024.Idx) : k0_pay6 (F := Ideal) i = ⊥ := by
  unfold k0_pay6; rw [shapeCast_self]; exact Cert.Attn.ofBits_neg_inf
theorem pay7_apply (i : S1x1024.Idx) : k0_pay7 (F := Ideal) i = 0 := by
  unfold k0_pay7; rw [shapeCast_self]; exact Ideal.ofBits_zero_f32

end Cert.KernelIdeal.Pay
end
-- ==== Proof.OnlineSoftmax.lean ====
/-
  A softmax-weighted mean accumulated one block of keys at a time.

  One row of scores is cut into four blocks of 512.  Going through the blocks in order one keeps a running maximum
  m, a running denominator l and, for every value row h, a running numerator acc h.  A block with scores s and
  values w, whose own maximum is mb, updates them to

      m'     = max m mb
      l'     = exp(m − m')·l + ∑ₖ exp(sₖ − m')
      acc' h = acc h·exp(m − m') + ∑ₖ w h k·exp(sₖ − m').

  The invariant: after the first c blocks, m is a real number a, l = ∑ exp(s − a) and acc h = ∑ w h·exp(s − a), the
  sums over the entries of those c blocks.  It survives a step because exp(a − a')·exp(s − a) = exp(s − a'); the
  first step starts from m = −∞, l = 0, acc = 0, where exp(−∞ − a') = 0 wipes the (empty) history.  After all four
  blocks acc h / l = (∑ w h·exp s)/(∑ exp s): the common factor exp(−a) cancels, so the value of the running
  maximum never matters, only that it is a real number (which makes every exponent finite).
  Everything is stated on the extended reals with real-valued inputs, in the shape the kernel's stores have.
-/
import proofs.«138610_j63754494542004_2_alg».proof.Proof.Spec

noncomputable section

namespace Cert.Attn

open Idealize.ShloMosaic

/-- The coercion from the reals commutes with a finite sum. -/
theorem coe_sum {ι : Type*} (s : Finset ι) (f : ι → ℝ) : ((∑ k ∈ s, f k : ℝ) : EReal) = ∑ k ∈ s, (f k : EReal) := by
  induction s using Finset.cons_induction with
  | empty => simp
  | cons a s ha ih => rw [Finset.sum_cons, Finset.sum_cons, EReal.coe_add, ih]

theorem coe_max (a b : ℝ) : max (a : EReal) (b : EReal) = ((max a b : ℝ) : EReal) :=
  (Monotone.map_max EReal.coe_strictMono.monotone).symm

/-- The maximum, taken from −∞, of a nonempty finite family of real numbers is a real number. -/
theorem fold_max_real {ι : Type*} (s : Finset ι) (hs : s.Nonempty) (f : ι → EReal) (hf : ∀ k, ∃ r : ℝ, f k = r) :
    ∃ b : ℝ, s.fold max ⊥ f = b := by
  induction hs using Finset.Nonempty.cons_induction with
  | singleton a =>
    obtain ⟨r, hr⟩ := hf a
    exact ⟨r, by rw [Finset.fold_singleton, hr, max_eq_left bot_le]⟩
  | cons a s ha hs ih =>
    obtain ⟨r, hr⟩ := hf a
    obtain ⟨b, hb⟩ := ih
    exact ⟨max r b, by rw [Finset.fold_cons, hr, hb, coe_max]⟩

/-- Key position 512·j + k: entry k of block j. -/
def col (j : Fin 4) (k : Fin 512) : Fin 2048 := ⟨512 * j.val + k.val, by have := j.isLt; have := k.isLt; omega⟩

/-- Query position 1024·i + q: entry q of query block i. -/
def qcol (i : Fin 2) (q : Fin 1024) : Fin 2048 := ⟨1024 * i.val + q.val, by have := i.isLt; have := q.isLt; omega⟩

/-- A sum over the 2048 key positions, block by block. -/
theorem sum_blocks (f : Fin 2048 → ℝ) : ∑ j : Fin 4, ∑ k : Fin 512, f (col j k) = ∑ m : Fin 2048, f m := by
  rw [← Fintype.sum_prod_type']
  refine Fintype.sum_equiv (finProdFinEquiv (m := 4) (n := 512)) _ _ fun p => congrArg f (Fin.ext ?_)
  show 512 * p.1.val + p.2.val = p.2.val + 512 * p.1.val
  omega

/-- The blocks before block c. -/
abbrev before (c : ℕ) : Finset (Fin 4) := Finset.univ.filter fun j => j.val < c

theorem sum_before_succ {β : Type*} [AddCommMonoid β] (g : Fin 4 → β) (c : ℕ) (j : Fin 4) (hj : j.val = c) :
    ∑ j' ∈ before (c + 1), g j' = g j + ∑ j' ∈ before c, g j' := by
  have e : before (c + 1) = insert j (before c) := by
    ext j'
    simp only [before, Finset.mem_filter, Finset.mem_univ, true_and, Finset.mem_insert, Fin.ext_iff]
    omega
  rw [e, Finset.sum_insert (by simp only [before, Finset.mem_filter, Finset.mem_univ, true_and]; omega)]

theorem before_zero : before 0 = ∅ := by
  ext j'; simp [before]

theorem before_four : before 4 = Finset.univ := by
  ext j'; simp only [before, Finset.mem_filter, Finset.mem_univ, true_and, iff_true]; exact j'.isLt

variable {H : Type*}

/-- The denominator over the first c blocks, scores shifted by a. -/
def den (x : Fin 4 → Fin 512 → ℝ) (c : ℕ) (a : ℝ) : ℝ := ∑ j ∈ before c, ∑ k : Fin 512, Real.exp (x j k - a)
/-- The numerator over the first c blocks, scores shifted by a. -/
def num (x w : Fin 4 → Fin 512 → ℝ) (c : ℕ) (a : ℝ) : ℝ := ∑ j ∈ before c, ∑ k : Fin 512, w j k * Real.exp (x j k - a)

/-- Changing the shift from a to a' multiplies by exp(a − a'). -/
theorem den_shift (x : Fin 4 → Fin 512 → ℝ) (c : ℕ) (a a' : ℝ) : Real.exp (a - a') * den x c a = den x c a' := by
  unfold den
  rw [Finset.mul_sum]
  refine Finset.sum_congr rfl fun j _ => ?_
  rw [Finset.mul_sum]
  refine Finset.sum_congr rfl fun k _ => ?_
  rw [← Real.exp_add]; congr 1; ring

theorem num_shift (x w : Fin 4 → Fin 512 → ℝ) (c : ℕ) (a a' : ℝ) : num x w c a * Real.exp (a - a') = num x w c a' := by
  unfold num
  rw [Finset.sum_mul]
  refine Finset.sum_congr rfl fun j _ => ?_
  rw [Finset.sum_mul]
  refine Finset.sum_congr rfl fun k _ => ?_
  rw [mul_assoc, ← Real.exp_add]; congr 2; ring

/-- THE INVARIANT after the first c blocks: the running maximum is a real number a, the running denominator and
    numerators are the sums over those blocks with scores shifted by a. -/
def Inv (x : Fin 4 → Fin 512 → ℝ) (v : H → Fin 4 → Fin 512 → ℝ) (c : ℕ) (M L : EReal) (A : H → EReal) : Prop :=
  ∃ a : ℝ, M = a ∧ L = (den x c a : ℝ) ∧ ∀ h, A h = (num x (v h) c a : ℝ)

/-- One block's update on real data (the algebra of a step, on the extended reals). -/
theorem step_real (x : Fin 4 → Fin 512 → ℝ) (v : H → Fin 4 → Fin 512 → ℝ) (c : ℕ) (j : Fin 4) (hj : j.val = c)
    (a a' : ℝ) (s : Fin 512 → EReal) (hs : ∀ k, s k = (x j k : ℝ)) (w : H → Fin 512 → EReal) (hw : ∀ h k, w h k = (v h j k : ℝ)) :
    ((Real.exp (a - a') : ℝ) : EReal) * (den x c a : ℝ) + ∑ k, Ideal.exp (s k - (a' : ℝ)) = (den x (c + 1) a' : ℝ)
    ∧ ∀ h, ((num x (v h) c a : ℝ) : EReal) * (Real.exp (a - a') : ℝ) + ∑ k, w h k * Ideal.exp (s k - (a' : ℝ)) = (num x (v h) (c + 1) a' : ℝ) := by
  have es : ∀ k, Ideal.exp (s k - (a' : ℝ)) = ((Real.exp (x j k - a') : ℝ) : EReal) := fun k => by
    rw [hs k, ← EReal.coe_sub, Ideal.exp_coe]
  refine ⟨?_, fun h => ?_⟩
  · simp only [es]
    rw [← coe_sum, ← EReal.coe_mul, ← EReal.coe_add, den_shift]
    congr 1
    unfold den
    rw [sum_before_succ _ c j hj, add_comm]
  · simp only [es, hw]
    simp only [← EReal.coe_mul]
    rw [← coe_sum, ← EReal.coe_add, num_shift]
    congr 1
    unfold num
    rw [sum_before_succ _ c j hj, add_comm]

/-- THE FIRST BLOCK, from the reset values m = −∞, l = 0, acc = 0. -/
theorem step_first (x : Fin 4 → Fin 512 → ℝ) (v : H → Fin 4 → Fin 512 → ℝ) (j : Fin 4) (hj : j.val = 0)
    (mb : EReal) (hmb : ∃ b : ℝ, mb = b) (s : Fin 512 → EReal) (hs : ∀ k, s k = (x j k : ℝ))
    (w : H → Fin 512 → EReal) (hw : ∀ h k, w h k = (v h j k : ℝ)) :
    Inv x v 1 (max ⊥ mb) (Ideal.exp (⊥ - max ⊥ mb) * 0 + ∑ k, Ideal.exp (s k - max ⊥ mb))
      (fun h => 0 * Ideal.exp (⊥ - max ⊥ mb) + ∑ k, w h k * Ideal.exp (s k - max ⊥ mb)) := by
  obtain ⟨b, rfl⟩ := hmb
  rw [max_eq_right bot_le]
  have h0 := step_real x v 0 j hj b b s hs w hw
  simp only [den, num, before_zero, Finset.sum_empty, sub_self, Real.exp_zero, EReal.coe_zero, EReal.coe_one, zero_mul, mul_zero, zero_add] at h0
  refine ⟨b, rfl, ?_, fun h => ?_⟩
  · rw [mul_zero, zero_add]; exact h0.1
  · show 0 * Ideal.exp (⊥ - (b : EReal)) + _ = _
    rw [zero_mul, zero_add]; exact h0.2 h

/-- A LATER BLOCK, from an invariant state. -/
theorem step_next (x : Fin 4 → Fin 512 → ℝ) (v : H → Fin 4 → Fin 512 → ℝ) (c : ℕ) (j : Fin 4) (hj : j.val = c)
    (M L : EReal) (A : H → EReal) (hinv : Inv x v c M L A)
    (mb : EReal) (hmb : ∃ b : ℝ, mb = b) (s : Fin 512 → EReal) (hs : ∀ k, s k = (x j k : ℝ))
    (w : H → Fin 512 → EReal) (hw : ∀ h k, w h k = (v h j k : ℝ)) :
    Inv x v (c + 1) (max M mb) (Ideal.exp (M - max M mb) * L + ∑ k, Ideal.exp (s k - max M mb))
      (fun h => A h * Ideal.exp (M - max M mb) + ∑ k, w h k * Ideal.exp (s k - max M mb)) := by
  obtain ⟨a, rfl, rfl, hA⟩ := hinv
  obtain ⟨b, rfl⟩ := hmb
  rw [coe_max]
  have h0 := step_real x v c j hj a (max a b) s hs w hw
  refine ⟨max a b, rfl, ?_, fun h => ?_⟩
  · rw [← EReal.coe_sub, Ideal.exp_coe]; exact h0.1
  · show A h * Ideal.exp ((a : EReal) - ((max a b : ℝ) : EReal)) + _ = _
    rw [hA h, ← EReal.coe_sub, Ideal.exp_coe]; exact h0.2 h

/-- AFTER ALL FOUR BLOCKS the quotient numerator / denominator is the softmax-weighted mean over the whole row,
    whatever real number the running maximum is. -/
theorem quotient_eq (x : Fin 4 → Fin 512 → ℝ) (v : H → Fin 4 → Fin 512 → ℝ) (M L : EReal) (A : H → EReal)
    (hinv : Inv x v 4 M L A) (h : H) :
    Ideal.div (A h) L = (((∑ j : Fin 4, ∑ k : Fin 512, v h j k * Real.exp (x j k)) / ∑ j : Fin 4, ∑ k : Fin 512, Real.exp (x j k) : ℝ) : EReal) := by
  obtain ⟨a, -, rfl, hA⟩ := hinv
  rw [hA h]
  have hd : den x 4 a = (∑ j : Fin 4, ∑ k : Fin 512, Real.exp (x j k)) * Real.exp (-a) := by
    unfold den
    rw [before_four, Finset.sum_mul]
    refine Finset.sum_congr rfl fun j _ => ?_
    rw [Finset.sum_mul]
    refine Finset.sum_congr rfl fun k _ => ?_
    rw [← Real.exp_add]; congr 1
  have hn : num x (v h) 4 a = (∑ j : Fin 4, ∑ k : Fin 512, v h j k * Real.exp (x j k)) * Real.exp (-a) := by
    unfold num
    rw [before_four, Finset.sum_mul]
    refine Finset.sum_congr rfl fun j _ => ?_
    rw [Finset.sum_mul]
    refine Finset.sum_congr rfl fun k _ => ?_
    rw [mul_assoc, ← Real.exp_add]; congr 2
  have hpos : 0 < ∑ j : Fin 4, ∑ k : Fin 512, Real.exp (x j k) :=
    Finset.sum_pos (fun j _ => Finset.sum_pos (fun k _ => Real.exp_pos _) Finset.univ_nonempty) Finset.univ_nonempty
  have hne : den x 4 a ≠ 0 := by rw [hd]; exact mul_ne_zero hpos.ne' (Real.exp_pos _).ne'
  rw [Ideal.div_coe hne, ← EReal.coe_mul]
  congr 1
  rw [hn, hd, one_div, ← div_eq_mul_inv, mul_div_mul_right _ _ (Real.exp_pos _).ne']

end Cert.Attn

end
-- ==== Proof.RowStep.lean ====
/-
  One grid point seen from one query column.

  Fix a query column q of the point's query block.  The three values the point stores for that column — the new
  running maximum, the new denominator, and for every hidden row h the new numerator — are exactly one step of the
  block-by-block softmax recursion, with the column's scores against the point's 512 keys as the block's scores and
  row h of the value block as the block's values.  So if those scores and values are real numbers, the first key
  block (which reads the reset values −∞, 0, 0) establishes the recursion's invariant for one block, every later
  block carries it from c blocks to c + 1, and after the fourth block the stored quotient is the softmax-weighted
  mean over all 2048 keys.
-/
import proofs.«138610_j63754494542004_2_alg».proof.Proof.Payloads
import proofs.«138610_j63754494542004_2_alg».proof.Proof.OnlineSoftmax

noncomputable section

open Idealize.ShloMosaic Idealize.ShloMosaic.ValueIdx

namespace Cert.KernelIdeal.Pay
open Cert.KernelIdeal Cert.KernelIdeal.Gen Cert.Attn

variable (x0 : Vec Ideal S1x768x1024 .f32) (x1 x2 x3 : Vec Ideal S1x768x512 .f32)
variable (xr : Fin 4 → Fin 512 → ℝ) (vr : Fin 768 → Fin 4 → Fin 512 → ℝ) (j : Fin 4) (q : Fin 1024)

/-- The column maximum of a tile of real scores is a real number. -/
theorem tileMax_real (hs : ∀ k, tile x0 x1 x2 k q = (xr j k : ℝ)) : ∃ b : ℝ, tileMax x0 x1 x2 q = b := by
  unfold tileMax
  rw [ofBits_neg_inf]
  exact fold_max_real Finset.univ Finset.univ_nonempty _ fun k => ⟨xr j k, hs k⟩

/-- What a point stores for column q, from what the buffers held (m0, l0, acc0) — the recursion's step, spelt out. -/
theorem stored_eq (m0 l0 : Vec Ideal S1x1024 .f32) (acc0 : Vec Ideal S768x1024 .f32) :
    k0_pay3 (F := Ideal) (k0_pay10 (F := Ideal) x0 x1 x2 m0) (ix2 (0 : Fin 1) q)
        = max (m0 (ix2 (0 : Fin 1) q)) (tileMax x0 x1 x2 q)
    ∧ k0_pay1 (F := Ideal) (k0_pay13 (F := Ideal) x0 x1 x2 m0 l0) (ix2 (0 : Fin 1) q)
        = Ideal.exp (m0 (ix2 (0 : Fin 1) q) - max (m0 (ix2 (0 : Fin 1) q)) (tileMax x0 x1 x2 q)) * l0 (ix2 (0 : Fin 1) q)
          + ∑ k : Fin 512, Ideal.exp (tile x0 x1 x2 k q - max (m0 (ix2 (0 : Fin 1) q)) (tileMax x0 x1 x2 q))
    ∧ ∀ h : Fin 768, k0_pay2 (F := Ideal) (k0_pay8 (F := Ideal) x3) (k0_pay11 (F := Ideal) x0 x1 x2 m0) (k0_pay12 (F := Ideal) x0 x1 x2 m0) acc0 (ix2 h q)
        = acc0 (ix2 h q) * Ideal.exp (m0 (ix2 (0 : Fin 1) q) - max (m0 (ix2 (0 : Fin 1) q)) (tileMax x0 x1 x2 q))
          + ∑ k : Fin 512, x3 (ix3 (0 : Fin 1) h k) * Ideal.exp (tile x0 x1 x2 k q - max (m0 (ix2 (0 : Fin 1) q)) (tileMax x0 x1 x2 q)) := by
  have hM := pay10_apply x0 x1 x2 m0 q
  have h11 : k0_pay11 (F := Ideal) x0 x1 x2 m0 (ix2 (0 : Fin 1) q)
      = Ideal.exp (m0 (ix2 (0 : Fin 1) q) - max (m0 (ix2 (0 : Fin 1) q)) (tileMax x0 x1 x2 q)) := by
    rw [pay11_apply, hM]
  have h12 : ∀ k : Fin 512, k0_pay12 (F := Ideal) x0 x1 x2 m0 (ix2 k q)
      = Ideal.exp (tile x0 x1 x2 k q - max (m0 (ix2 (0 : Fin 1) q)) (tileMax x0 x1 x2 q)) := fun k => by
    rw [pay12_apply, hM]
  refine ⟨by rw [pay3_eq, hM], ?_, fun h => ?_⟩
  · rw [pay1_eq, pay13_apply, h11]
    exact congrArg (_ + ·) (Finset.sum_congr rfl fun k _ => h12 k)
  · rw [pay2_apply, h11]
    exact congrArg (_ + ·) (Finset.sum_congr rfl fun k _ => by rw [pay8_apply, h12 k])

/-- THE FIRST KEY BLOCK: the stores read the reset values, and leave the invariant for one block. -/
theorem row_first (hj : j.val = 0) (hs : ∀ k, tile x0 x1 x2 k q = (xr j k : ℝ))
    (hv : ∀ h k, x3 (ix3 (0 : Fin 1) h k) = (vr h j k : ℝ)) :
    Inv xr vr 1
      (k0_pay3 (F := Ideal) (k0_pay10 (F := Ideal) x0 x1 x2 (k0_pay6 (F := Ideal))) (ix2 (0 : Fin 1) q))
      (k0_pay1 (F := Ideal) (k0_pay13 (F := Ideal) x0 x1 x2 (k0_pay6 (F := Ideal)) (k0_pay7 (F := Ideal))) (ix2 (0 : Fin 1) q))
      (fun h => k0_pay2 (F := Ideal) (k0_pay8 (F := Ideal) x3) (k0_pay11 (F := Ideal) x0 x1 x2 (k0_pay6 (F := Ideal))) (k0_pay12 (F := Ideal) x0 x1 x2 (k0_pay6 (F := Ideal))) (k0_pay5 (F := Ideal)) (ix2 h q)) := by
  obtain ⟨e1, e2, e3⟩ := stored_eq x0 x1 x2 x3 q (k0_pay6 (F := Ideal)) (k0_pay7 (F := Ideal)) (k0_pay5 (F := Ideal))
  rw [e1, e2, funext e3]
  simp only [pay6_apply, pay7_apply, pay5_apply]
  exact step_first xr vr j hj (tileMax x0 x1 x2 q) (tileMax_real x0 x1 x2 xr j q hs) (fun k => tile x0 x1 x2 k q) hs
    (fun h k => x3 (ix3 (0 : Fin 1) h k)) hv

/-- A LATER KEY BLOCK: the stores carry the invariant from c blocks to c + 1. -/
theorem row_next (c : ℕ) (hj : j.val = c) (m0 l0 : Vec Ideal S1x1024 .f32) (acc0 : Vec Ideal S768x1024 .f32)
    (hinv : Inv xr vr c (m0 (ix2 (0 : Fin 1) q)) (l0 (ix2 (0 : Fin 1) q)) (fun h => acc0 (ix2 h q)))
    (hs : ∀ k, tile x0 x1 x2 k q = (xr j k : ℝ)) (hv : ∀ h k, x3 (ix3 (0 : Fin 1) h k) = (vr h j k : ℝ)) :
    Inv xr vr (c + 1)
      (k0_pay3 (F := Ideal) (k0_pay10 (F := Ideal) x0 x1 x2 m0) (ix2 (0 : Fin 1) q))
      (k0_pay1 (F := Ideal) (k0_pay13 (F := Ideal) x0 x1 x2 m0 l0) (ix2 (0 : Fin 1) q))
      (fun h => k0_pay2 (F := Ideal) (k0_pay8 (F := Ideal) x3) (k0_pay11 (F := Ideal) x0 x1 x2 m0) (k0_pay12 (F := Ideal) x0 x1 x2 m0) acc0 (ix2 h q)) := by
  obtain ⟨e1, e2, e3⟩ := stored_eq x0 x1 x2 x3 q m0 l0 acc0
  rw [e1, e2, funext e3]
  exact step_next xr vr c j hj _ _ _ hinv (tileMax x0 x1 x2 q) (tileMax_real x0 x1 x2 xr j q hs) (fun k => tile x0 x1 x2 k q) hs
    (fun h k => x3 (ix3 (0 : Fin 1) h k)) hv

/-- AFTER THE FOURTH BLOCK the quotient stored into the output block is the softmax-weighted mean. -/
theorem row_quot (M : EReal) (vL : Vec Ideal S1x1024 .f32) (vA : Vec Ideal S768x1024 .f32)
    (hinv : Inv xr vr 4 M (vL (ix2 (0 : Fin 1) q)) (fun h => vA (ix2 h q))) (h : Fin 768) :
    k0_pay4 (F := Ideal) vA vL (ix3 (0 : Fin 1) h q)
      = (((∑ j : Fin 4, ∑ k : Fin 512, vr h j k * Real.exp (xr j k)) / ∑ j : Fin 4, ∑ k : Fin 512, Real.exp (xr j k) : ℝ) : EReal) := by
  rw [pay4_apply]
  exact quotient_eq xr vr M _ _ hinv h

end Cert.KernelIdeal.Pay

end
-- ==== Proof.Blocks.lean ====
/-
  The kernel runs over a grid of 16 × 2 × 4 = 128 points, the last axis fastest: point t has batch t / 8, query
  block (t / 4) mod 2 and key block t mod 4.  At point t the query array is staged in the block of all 768 hidden
  rows and the 1024 query columns 1024·i … 1024·i + 1023 of batch b; the key, key positional and value arrays in
  the block of all 768 rows and the 512 key columns 512·j … 512·j + 511 of batch b.  An entry of a block sits in
  its array, on every axis, at (block index) × (block size) + (the coordinate inside the block).

  The result array is written back in blocks shaped like the query's, only at the last key block (j = 3) of each
  (b, i).  Those 32 blocks tile the [16, 768, 2048] result: entry (b, h, n) lies in the block written at point
  8·b + 4·(n / 1024) + 3.  So if what each such point writes back agrees, entry by entry, with one array read at
  the block's place, the result array after the run is that array.
-/
import proofs.«138610_j63754494542004_2_alg».proof.Proof.Gen.KernelIdeal.Value
import proofs.«138610_j63754494542004_2_alg».proof.Proof.OnlineSoftmax
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

variable {F : FTy → Type} [FloatOps F]

/-- The grid has 128 points. -/
theorem N_eq : cfg0.N = 128 := N_0

/-- The batch of point `t`. -/
def bOf (t : Fin cfg0.N) : Fin 16 := ⟨t.val / 8, by have := t.isLt; have := N_eq; omega⟩
/-- The query block of point `t`. -/
def iOf (t : Fin cfg0.N) : Fin 2 := ⟨t.val / 4 % 2, by omega⟩
/-- The key block of point `t`. -/
def jOf (t : Fin cfg0.N) : Fin 4 := ⟨t.val % 4, by omega⟩

/-- The five block indices at every point, decided once over the grid: on the batch axis the batch, on the hidden
    axis 0, on the position axis the query block (query and result windows) or the key block (the other three). -/
theorem index_facts : ∀ t : Fin cfg0.N,
    (win0_0.index t (0 : Fin 3) = t.val / 8 ∧ win0_0.index t (1 : Fin 3) = 0 ∧ win0_0.index t (2 : Fin 3) = t.val / 4 % 2)
    ∧ (win0_1.index t (0 : Fin 3) = t.val / 8 ∧ win0_1.index t (1 : Fin 3) = 0 ∧ win0_1.index t (2 : Fin 3) = t.val % 4)
    ∧ (win0_2.index t (0 : Fin 3) = t.val / 8 ∧ win0_2.index t (1 : Fin 3) = 0 ∧ win0_2.index t (2 : Fin 3) = t.val % 4)
    ∧ (win0_3.index t (0 : Fin 3) = t.val / 8 ∧ win0_3.index t (1 : Fin 3) = 0 ∧ win0_3.index t (2 : Fin 3) = t.val % 4)
    ∧ (win0_4.index t (0 : Fin 3) = t.val / 8 ∧ win0_4.index t (1 : Fin 3) = 0 ∧ win0_4.index t (2 : Fin 3) = t.val / 4 % 2) :=
  (by decide +kernel : ∀ t : Fin grid0.N, _)

variable (m : (ℓ : Loc nD τ sig) → Buf (Elt F) ℓ)

/-! ## The input blocks, entry by entry -/

/-- The query block at point `t`: hidden row `h`, column `q` of the block is column 1024·i + q of batch b. -/
theorem iblk0_apply (c : Dev nD) (t : Fin cfg0.N) (h : Fin 768) (q : Fin 1024) :
    iblk m c 0 t (ix3 (0 : Fin 1) h q)
      = m ((c : Thread nD τ).loc main_arg0) (ix3 (bOf t) h (Cert.Attn.qcol (iOf t) q)) := by
  obtain ⟨⟨e0, e1, e2⟩, -⟩ := index_facts t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * ((0 : Fin 1) : Nat) = t.val / 8; rw [e0]; simp
  | ⟨1, _⟩ => show win0_0.index t (1 : Fin 3) * 768 + 1 * h.val = h.val; rw [e1]; omega
  | ⟨2, _⟩ => show win0_0.index t (2 : Fin 3) * 1024 + 1 * q.val = 1024 * (t.val / 4 % 2) + q.val; rw [e2]; omega

/-- The key block at point `t`: hidden row `h`, column `k` of the block is column 512·j + k of batch b. -/
theorem iblk1_apply (c : Dev nD) (t : Fin cfg0.N) (h : Fin 768) (k : Fin 512) :
    iblk m c 1 t (ix3 (0 : Fin 1) h k)
      = m ((c : Thread nD τ).loc main_arg1) (ix3 (bOf t) h (Cert.Attn.col (jOf t) k)) := by
  obtain ⟨-, ⟨e0, e1, e2⟩, -⟩ := index_facts t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * ((0 : Fin 1) : Nat) = t.val / 8; rw [e0]; simp
  | ⟨1, _⟩ => show win0_1.index t (1 : Fin 3) * 768 + 1 * h.val = h.val; rw [e1]; omega
  | ⟨2, _⟩ => show win0_1.index t (2 : Fin 3) * 512 + 1 * k.val = 512 * (t.val % 4) + k.val; rw [e2]; omega

/-- The key positional block at point `t`: hidden row `h`, column `k` of the block is column 512·j + k of batch b. -/
theorem iblk2_apply (c : Dev nD) (t : Fin cfg0.N) (h : Fin 768) (k : Fin 512) :
    iblk m c 2 t (ix3 (0 : Fin 1) h k)
      = m ((c : Thread nD τ).loc main_arg3) (ix3 (bOf t) h (Cert.Attn.col (jOf t) k)) := by
  obtain ⟨-, -, ⟨e0, e1, e2⟩, -⟩ := index_facts t
  unfold iblk
  rw [View.read_apply]
  show V m c main_arg3 _ = m (c.tc.loc main_arg3) _
  unfold V
  congr 1
  funext a
  apply Fin.ext
  match a with
  | ⟨0, _⟩ => show win0_2.index t (0 : Fin 3) * 1 + 1 * ((0 : Fin 1) : Nat) = t.val / 8; rw [e0]; simp
  | ⟨1, _⟩ => show win0_2.index t (1 : Fin 3) * 768 + 1 * h.val = h.val; rw [e1]; omega
  | ⟨2, _⟩ => show win0_2.index t (2 : Fin 3) * 512 + 1 * k.val = 512 * (t.val % 4) + k.val; rw [e2]; omega

/-- The value block at point `t`: hidden row `h`, column `k` of the block is column 512·j + k of batch b. -/
theorem iblk3_apply (c : Dev nD) (t : Fin cfg0.N) (h : Fin 768) (k : Fin 512) :
    iblk m c 3 t (ix3 (0 : Fin 1) h k)
      = m ((c : Thread nD τ).loc main_arg2) (ix3 (bOf t) h (Cert.Attn.col (jOf t) k)) := by
  obtain ⟨-, -, -, ⟨e0, e1, e2⟩, -⟩ := index_facts t
  unfold iblk
  rw [View.read_apply]
  show V m c main_arg2 _ = m (c.tc.loc main_arg2) _
  unfold V
  congr 1
  funext a
  apply Fin.ext
  match a with
  | ⟨0, _⟩ => show win0_3.index t (0 : Fin 3) * 1 + 1 * ((0 : Fin 1) : Nat) = t.val / 8; rw [e0]; simp
  | ⟨1, _⟩ => show win0_3.index t (1 : Fin 3) * 768 + 1 * h.val = h.val; rw [e1]; omega
  | ⟨2, _⟩ => show win0_3.index t (2 : Fin 3) * 512 + 1 * k.val = 512 * (t.val % 4) + k.val; rw [e2]; omega

/-! ## From the blocks written back to the result array -/

/-- A block entry (0, h, q) against the array entry (b, h, 1024·i + q): two readings that agree at every such pair
    agree at any block index and any array index with those coordinates. -/
theorem read_block_eq (X : Vec F S1x768x1024 .f32) (G : S16x768x2048.Idx → Elt F .f32) (b : Fin 16) (i : Fin 2)
    (hX : ∀ (h : Fin 768) (q : Fin 1024), X (ix3 (0 : Fin 1) h q) = G (ix3 b h (Cert.Attn.qcol i q)))
    (y : S1x768x1024.Idx) (k : S16x768x2048.Idx)
    (hk0 : (k 0).val = b.val) (hk1 : (k 1).val = (y 1).val) (hk2 : (k 2).val = 1024 * i.val + (y 2).val) :
    X y = G k := by
  have hy : y = ix3 (0 : Fin 1) (y 1) (y 2) := by
    funext a; apply Fin.ext
    match a with
    | ⟨0, _⟩ => show (y 0).val = 0; have : (y 0).val < 1 := (y 0).isLt; omega
    | ⟨1, _⟩ => rfl
    | ⟨2, _⟩ => rfl
  have hk : k = ix3 b (y 1) (Cert.Attn.qcol i (y 2)) := by
    funext a; apply Fin.ext
    match a with
    | ⟨0, _⟩ => exact hk0
    | ⟨1, _⟩ => exact hk1
    | ⟨2, _⟩ => exact hk2
  exact (congrArg X hy).trans ((hX (y 1) (y 2)).trans (congrArg G hk.symm))

/-- What a point with key block 3 writes back is its block of `Gm`, when the staged result agrees with `Gm` entry by entry. -/
theorem flushed4_eq (c : Dev nD) (Gm : Buf (Elt F) ((c : Thread nD τ).loc main_v0))
    (hout : ∀ (t : Fin cfg0.N), t.val % 4 = 3 → ∀ (h : Fin 768) (q : Fin 1024),
       ((outsAt0 m c t.val t.isLt).1 : Vec F S1x768x1024 .f32) (ix3 (0 : Fin 1) h q) = Gm (ix3 (bOf t) h (Cert.Attn.qcol (iOf t) q)))
    (t : Fin cfg0.N) (hf : (cfg0.win 4).flush t = true) :
    (dats m 0 c).flushed 4 t = ((cfg0.win 4).blk t).view.read (Elt F) Gm := by
  have h3 : t.val % 4 = 3 := (flush0_4 t).mp hf
  obtain ⟨-, -, -, -, ⟨e0, e1, e2⟩⟩ := index_facts t
  rw [Value.flushed4]
  funext y
  show ((outsAt0 m c t.val t.isLt).1 : Vec F S1x768x1024 .f32) _ = Gm (((cfg0.win 4).blk t).view.emb y)
  refine read_block_eq _ Gm (bOf t) (iOf t) (hout t h3) _ _ ?_ ?_ ?_
  · show win0_4.index t (0 : Fin 3) * 1 + 1 * (y 0).val = t.val / 8
    have : (y 0).val < 1 := (y 0).isLt
    rw [e0]; omega
  · show win0_4.index t (1 : Fin 3) * 768 + 1 * (y 1).val = (y 1).val
    rw [e1]; omega
  · show win0_4.index t (2 : Fin 3) * 1024 + 1 * (y 2).val = 1024 * (t.val / 4 % 2) + (y 2).val
    rw [e2]; omega

/-- An index of the result array is in point `t`'s block iff each coordinate is in the block's range on its axis. -/
theorem mem_blk4 (t : Fin cfg0.N) (i : S16x768x2048.Idx) :
    i ∈ ((cfg0.win 4).blk t).view.set ↔ ∀ a : Fin 3, win0_4.index t a * S1x768x1024.size a ≤ (i a).val ∧ (i a).val < win0_4.index t a * S1x768x1024.size a + S1x768x1024.size a := by
  show i ∈ ((View.whole main_v0).slice (win0_4.rect t)).set ↔ _
  rw [View.set_slice_whole, Rect.mem_set_unit]
  exact Iff.rfl

/-- Every entry (b, h, n) of the result array lies in the block written back at point 8·b + 4·(n / 1024) + 3. -/
theorem cover4 (i : S16x768x2048.Idx) :
    ∃ t : Fin cfg0.N, (cfg0.win 4).flush t = true ∧ i ∈ ((cfg0.win 4).blk t).view.set := by
  have h0 : (i 0).val < 16 := (i 0).isLt
  have h1 : (i 1).val < 768 := (i 1).isLt
  have h2 : (i 2).val < 2048 := (i 2).isLt
  have hN := N_eq
  obtain ⟨t, ht⟩ : ∃ t : Fin cfg0.N, t.val = 8 * (i 0).val + 4 * ((i 2).val / 1024) + 3 := ⟨⟨_, by omega⟩, rfl⟩
  obtain ⟨-, -, -, -, ⟨e0, e1, e2⟩⟩ := index_facts t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 768 ≤ (i 1).val ∧ (i 1).val < win0_4.index t (1 : Fin 3) * 768 + 768; rw [e1]; omega
  | ⟨2, _⟩ => show win0_4.index t (2 : Fin 3) * 1024 ≤ (i 2).val ∧ (i 2).val < win0_4.index t (2 : Fin 3) * 1024 + 1024; rw [e2]; omega

/-- THE RESULT ARRAY after the run is `Gm`, for any array `Gm` that every written-back block agrees with entry by entry. -/
theorem final4 (c : Dev nD) (Gm : Buf (Elt F) ((c : Thread nD τ).loc main_v0))
    (hout : ∀ (t : Fin cfg0.N), t.val % 4 = 3 → ∀ (h : Fin 768) (q : Fin 1024),
       ((outsAt0 m c t.val t.isLt).1 : Vec F S1x768x1024 .f32) (ix3 (0 : Fin 1) h q) = Gm (ix3 (bOf t) h (Cert.Attn.qcol (iOf t) q))) :
    (dats m 0 c).arrAt 4 cfg0.N = Gm :=
  (dats m 0 c).arrAt_eq_of_cover 4 Gm (flushed4_eq m c Gm hout) cover4

/-- The kernel's run with the result array named: `Gm c` on every core, the four arguments unchanged. -/
theorem run4 (ρ : Dev nD → PrngReg) (Gm : (c : Dev nD) → Buf (Elt F) ((c : Thread nD τ).loc main_v0))
    (hout : ∀ (c : Dev nD) (t : Fin cfg0.N), t.val % 4 = 3 → ∀ (h : Fin 768) (q : Fin 1024),
       ((outsAt0 m c t.val t.isLt).1 : Vec F S1x768x1024 .f32) (ix3 (0 : Fin 1) h q) = Gm c (ix3 (bOf t) h (Cert.Attn.qcol (iOf t) q))) :
    θ_run defs (onTc (τ := τ) (main (F := F))) ⟨m, fun _ => 0, ρ⟩ fun r => ∀ c : Dev nD,
      r.2.mem ((c : Thread nD τ).loc main_v0) = Gm c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1).trans (final4 m c (Gm c) (hout c)), (h c).2⟩)
    (Value.run_blocks m ρ)

end Cert.KernelIdeal.Blocks

end
-- ==== Proof.KernelScore.lean ====
/-
  The score as one sum with the scale folded into the query.

  For a batch b, a query position n and a key position m, the sum over the hidden axis of
  (k[b,h,m] + pe[b,h,m]) · (q[b,h,n] · c) is the specification's score (∑ₕ q·k + ∑ₕ q·pe) · c: over the reals each
  term is q·k·c + q·pe·c, a finite sum splits over the addition, and the common factor c comes out of it.  Every
  entry is a real number and c is one, so the sum of extended reals is the coercion of that real sum.
-/
import proofs.«138610_j63754494542004_2_alg».proof.Proof.Spec
import proofs.«138610_j63754494542004_2_alg».proof.Proof.RefLaw

namespace Cert.Attn

open Idealize.ShloMosaic Idealize.ShloMosaic.ValueIdx

/-- An entry of an all-real array is the coercion of its real part. -/
theorem value_real (V : Arr) (hV : AllReal V) (i : (⟨3, ![16, 768, 2048]⟩ : Shape).Idx) :
    V i = (((V i).toReal : ℝ) : EReal) := (hV i).symm

/-- The one-sum form of the score, scale folded into the query, is the coercion of the specification's score. -/
theorem kernel_score (Q K PE : Arr) (hQ : AllReal Q) (hK : AllReal K) (hPE : AllReal PE)
    (b : Fin 16) (n m : Fin 2048) :
    ∑ h : Fin 768, (K (ix3 b h m) + PE (ix3 b h m)) * (Q (ix3 b h n) * Ideal.ofBits .f32 0x3D13CD3A#32)
      = ((score Q K PE b n m : ℝ) : EReal) := by
  have hreal : score Q K PE b n m
      = ∑ h : Fin 768, ((K (ix3 b h m)).toReal + (PE (ix3 b h m)).toReal) * ((Q (ix3 b h n)).toReal * scale) := by
    unfold score
    rw [← Finset.sum_add_distrib, Finset.sum_mul]
    exact Finset.sum_congr rfl fun h _ => by ring
  rw [hreal, Ref.coe_sum, ofBits_scale]
  refine Finset.sum_congr rfl fun h _ => ?_
  rw [EReal.coe_mul, EReal.coe_add, EReal.coe_mul, hQ, hK, hPE]

end Cert.Attn
-- ==== Proof.KernelValue.lean ====
/-
  The kernel's result array, point by point.

  The grid runs over (batch b, query block i, key block j), j innermost.  Within one (b, i) the four points j = 0..3
  visit the four key blocks in order while the three running buffers are carried from point to point, so for every
  query column q of the block the buffers after point (b, i, j) satisfy the block-by-block softmax invariant for
  j + 1 blocks, with the column's scores score b (1024·i + q) · against the 2048 keys and the rows of value[b] as
  data (by induction along the points: the point j = 0 resets and starts, the others continue from the point
  before, which is in the same (b, i)).  At j = 3 the quotient stored into the output block is therefore the
  softmax-weighted mean attn b h (1024·i + q), and those blocks tile the result array.
-/
import proofs.«138610_j63754494542004_2_alg».proof.Proof.Gen.KernelIdeal.Value
import proofs.«138610_j63754494542004_2_alg».proof.Proof.Pieces
import proofs.«138610_j63754494542004_2_alg».proof.Proof.RowStep
import proofs.«138610_j63754494542004_2_alg».proof.Proof.Blocks
import proofs.«138610_j63754494542004_2_alg».proof.Proof.KernelScore

noncomputable section

open Idealize.ShloMosaic Idealize.ShloMosaic.ValueIdx Idealize.ShloMosaic.TcCoe Idealize.SL.Sem

namespace Cert.KernelIdeal.KernelValue
open Cert.KernelIdeal Cert.KernelIdeal.Gen Cert.KernelIdeal.Blocks Cert.KernelIdeal.Pay Cert.Attn

variable (m : (ℓ : Loc nD τ sig) → Buf (Elt Ideal) ℓ) (c : Dev nD)

/-- The four argument arrays on core c: query, key, value, key positional term. -/
abbrev aQ : Arr := m ((c : Thread nD τ).loc main_arg0)
abbrev aK : Arr := m ((c : Thread nD τ).loc main_arg1)
abbrev aV : Arr := m ((c : Thread nD τ).loc main_arg2)
abbrev aPE : Arr := m ((c : Thread nD τ).loc main_arg3)

/-- The scores of query column q of point t's query block against all keys, by key block. -/
def xrow (t : Fin cfg0.N) (q : Fin 1024) : Fin 4 → Fin 512 → ℝ :=
  fun j k => score (aQ m c) (aK m c) (aPE m c) (bOf t) (qcol (iOf t) q) (col j k)
/-- The value rows of point t's batch, by key block. -/
def vrow (t : Fin cfg0.N) : Fin 768 → Fin 4 → Fin 512 → ℝ :=
  fun h j k => ((aV m c) (ix3 (bOf t) h (col j k))).toReal

/-- The score tile of point t is the real scores of its query block against its key block. -/
theorem tile_point (hQ : AllReal (aQ m c)) (hK : AllReal (aK m c)) (hPE : AllReal (aPE m c)) (t : Fin cfg0.N) (q : Fin 1024) (k : Fin 512) :
    tile (iblk m c 0 t) (iblk m c 1 t) (iblk m c 2 t) k q = ((xrow m c t q (jOf t) k : ℝ) : EReal) := by
  unfold tile
  simp only [iblk0_apply, iblk1_apply, iblk2_apply]
  exact kernel_score (aQ m c) (aK m c) (aPE m c) hQ hK hPE (bOf t) (qcol (iOf t) q) (col (jOf t) k)

/-- The value block of point t is the real value rows of its key block. -/
theorem value_point (hV : AllReal (aV m c)) (t : Fin cfg0.N) (h : Fin 768) (k : Fin 512) :
    (iblk m c 3 t (ix3 (0 : Fin 1) h k) : EReal) = ((vrow m c t h (jOf t) k : ℝ) : EReal) := by
  rw [iblk3_apply]
  exact (hV _).symm

/-- THE STATE AFTER POINT t: for every query column the running maximum, denominator and numerators satisfy the
    invariant for the key blocks visited so far. -/
def St (t : Fin cfg0.N) : Prop :=
  ∀ q : Fin 1024, Inv (xrow m c t q) (vrow m c t) ((jOf t).val + 1)
    ((outsAt0 m c t.val t.isLt).2.2.1 (ix2 (0 : Fin 1) q)) ((outsAt0 m c t.val t.isLt).2.2.2 (ix2 (0 : Fin 1) q))
    (fun h => (outsAt0 m c t.val t.isLt).2.1 (ix2 h q))

theorem st_all (hQ : AllReal (aQ m c)) (hK : AllReal (aK m c)) (hV : AllReal (aV m c)) (hPE : AllReal (aPE m c)) (n : ℕ) :
    ∀ hn : n < cfg0.N, St m c ⟨n, hn⟩ := by
  induction n using Nat.strong_induction_on with
  | _ n ih =>
    intro hn q
    have hN : n < 128 := lt_of_lt_of_eq hn (show cfg0.N = 128 from N_0)
    by_cases h0 : n % 4 = 0
    · have h1 : ¬n % 4 = 3 := by omega
      have e := outsAt0_A m c (⟨n, hn⟩ : Fin cfg0.N) h0 h1
      show Inv _ _ _ ((outsAt0 m c n hn).2.2.1 _) ((outsAt0 m c n hn).2.2.2 _) (fun h => (outsAt0 m c n hn).2.1 _)
      rw [e]
      dsimp only
      rw [Pieces.accA (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)), Pieces.maxA (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)), Pieces.denA (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N))]
      rw [show (jOf (⟨n, hn⟩ : Fin cfg0.N)).val + 1 = 1 from by show n % 4 + 1 = 1; omega]
      exact row_first (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (xrow m c (⟨n, hn⟩ : Fin cfg0.N) q) (vrow m c (⟨n, hn⟩ : Fin cfg0.N)) (jOf (⟨n, hn⟩ : Fin cfg0.N)) q h0
        (tile_point m c hQ hK hPE (⟨n, hn⟩ : Fin cfg0.N) q) (value_point m c hV (⟨n, hn⟩ : Fin cfg0.N))
    · have hp : n - 1 < cfg0.N := Nat.lt_of_le_of_lt (Nat.sub_le _ _) hn
      have hb : bOf (⟨n - 1, hp⟩ : Fin cfg0.N) = bOf (⟨n, hn⟩ : Fin cfg0.N) := Fin.ext (by show (n - 1) / 8 = n / 8; omega)
      have hi : iOf (⟨n - 1, hp⟩ : Fin cfg0.N) = iOf (⟨n, hn⟩ : Fin cfg0.N) := Fin.ext (by show (n - 1) / 4 % 2 = n / 4 % 2; omega)
      have hj : (jOf (⟨n - 1, hp⟩ : Fin cfg0.N)).val + 1 = (jOf (⟨n, hn⟩ : Fin cfg0.N)).val := by show (n - 1) % 4 + 1 = n % 4; omega
      have hx : xrow m c (⟨n - 1, hp⟩ : Fin cfg0.N) q = xrow m c (⟨n, hn⟩ : Fin cfg0.N) q := by unfold xrow; rw [hb, hi]
      have hvr : vrow m c (⟨n - 1, hp⟩ : Fin cfg0.N) = vrow m c (⟨n, hn⟩ : Fin cfg0.N) := by unfold vrow; rw [hb]
      have hinv : Inv (xrow m c (⟨n, hn⟩ : Fin cfg0.N) q) (vrow m c (⟨n, hn⟩ : Fin cfg0.N)) (jOf (⟨n, hn⟩ : Fin cfg0.N)).val
          ((outsAt0 m c (n - 1) hp).2.2.1 (ix2 (0 : Fin 1) q)) ((outsAt0 m c (n - 1) hp).2.2.2 (ix2 (0 : Fin 1) q)) (fun h => (outsAt0 m c (n - 1) hp).2.1 (ix2 h q)) := by
        have := ih (n - 1) (by omega) hp q
        rw [hx, hvr, hj] at this
        exact this
      show Inv _ _ _ ((outsAt0 m c n hn).2.2.1 _) ((outsAt0 m c n hn).2.2.2 _) (fun h => (outsAt0 m c n hn).2.1 _)
      by_cases h1 : n % 4 = 3
      · have e := outsAt0_C m c (⟨n, hn⟩ : Fin cfg0.N) h0 h1
        rw [e]
        dsimp only
        rw [Pieces.accC (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) hp).2.1 (outsAt0 m c (n - 1) hp).2.2.1 (outsAt0 m c (n - 1) hp).2.2.2, Pieces.maxC (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) hp).2.1 (outsAt0 m c (n - 1) hp).2.2.1 (outsAt0 m c (n - 1) hp).2.2.2, Pieces.denC (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) hp).2.1 (outsAt0 m c (n - 1) hp).2.2.1 (outsAt0 m c (n - 1) hp).2.2.2]
        exact row_next (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (xrow m c (⟨n, hn⟩ : Fin cfg0.N) q) (vrow m c (⟨n, hn⟩ : Fin cfg0.N)) (jOf (⟨n, hn⟩ : Fin cfg0.N)) q (jOf (⟨n, hn⟩ : Fin cfg0.N)).val rfl
          (outsAt0 m c (n - 1) hp).2.2.1 (outsAt0 m c (n - 1) hp).2.2.2 (outsAt0 m c (n - 1) hp).2.1 hinv (tile_point m c hQ hK hPE (⟨n, hn⟩ : Fin cfg0.N) q) (value_point m c hV (⟨n, hn⟩ : Fin cfg0.N))
      · have e := outsAt0_B m c (⟨n, hn⟩ : Fin cfg0.N) h0 h1
        rw [e]
        dsimp only
        rw [Pieces.accB (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) hp).2.1 (outsAt0 m c (n - 1) hp).2.2.1 (outsAt0 m c (n - 1) hp).2.2.2, Pieces.maxB (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) hp).2.1 (outsAt0 m c (n - 1) hp).2.2.1 (outsAt0 m c (n - 1) hp).2.2.2, Pieces.denB (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) hp).2.1 (outsAt0 m c (n - 1) hp).2.2.1 (outsAt0 m c (n - 1) hp).2.2.2]
        exact row_next (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (xrow m c (⟨n, hn⟩ : Fin cfg0.N) q) (vrow m c (⟨n, hn⟩ : Fin cfg0.N)) (jOf (⟨n, hn⟩ : Fin cfg0.N)) q (jOf (⟨n, hn⟩ : Fin cfg0.N)).val rfl
          (outsAt0 m c (n - 1) hp).2.2.1 (outsAt0 m c (n - 1) hp).2.2.2 (outsAt0 m c (n - 1) hp).2.1 hinv (tile_point m c hQ hK hPE (⟨n, hn⟩ : Fin cfg0.N) q) (value_point m c hV (⟨n, hn⟩ : Fin cfg0.N))

/-- At a last key block the output block holds the quotient of the new numerator by the new denominator. -/
theorem out_quot (t : Fin cfg0.N) (h0 : ¬t.val % 4 = 0) (h1 : t.val % 4 = 3) :
    (outsAt0 m c t.val t.isLt).1 = k0_pay4 (F := Ideal) (outsAt0 m c t.val t.isLt).2.1 (outsAt0 m c t.val t.isLt).2.2.2 := by
  obtain ⟨n, hn⟩ := t
  have hp : n - 1 < cfg0.N := Nat.lt_of_le_of_lt (Nat.sub_le _ _) hn
  have e := outsAt0_C m c (⟨n, hn⟩ : Fin cfg0.N) h0 h1
  show (outsAt0 m c n hn).1 = k0_pay4 (F := Ideal) (outsAt0 m c n hn).2.1 (outsAt0 m c n hn).2.2.2
  rw [e]
  dsimp only
  rw [Pieces.outC (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) hp).2.1 (outsAt0 m c (n - 1) hp).2.2.1 (outsAt0 m c (n - 1) hp).2.2.2, Pieces.accC (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) hp).2.1 (outsAt0 m c (n - 1) hp).2.2.1 (outsAt0 m c (n - 1) hp).2.2.2, Pieces.denC (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) scM0_1 (Memref.isWhole_whole _) scM0_2 (Memref.isWhole_whole _) (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) (outsAt0 m c (n - 1) hp).2.1 (outsAt0 m c (n - 1) hp).2.2.1 (outsAt0 m c (n - 1) hp).2.2.2]

/-- What a last key block's point writes back: the specification's block. -/
theorem out_all (hQ : AllReal (aQ m c)) (hK : AllReal (aK m c)) (hV : AllReal (aV m c)) (hPE : AllReal (aPE m c))
    (t : Fin cfg0.N) (h1 : t.val % 4 = 3) (h : Fin 768) (q : Fin 1024) :
    ((outsAt0 m c t.val t.isLt).1 : Vec Ideal S1x768x1024 .f32) (ix3 (0 : Fin 1) h q)
      = G (aQ m c) (aK m c) (aV m c) (aPE m c) (ix3 (bOf t) h (qcol (iOf t) q)) := by
  have h0 : ¬t.val % 4 = 0 := by omega
  have hst := st_all m c hQ hK hV hPE t.val t.isLt q
  have h4 : (jOf t).val + 1 = 4 := by show t.val % 4 + 1 = 4; omega
  rw [out_quot m c t h0 h1]
  have hinv : Inv (xrow m c t q) (vrow m c t) 4 ((outsAt0 m c t.val t.isLt).2.2.1 (ix2 (0 : Fin 1) q))
      ((outsAt0 m c t.val t.isLt).2.2.2 (ix2 (0 : Fin 1) q)) (fun h => (outsAt0 m c t.val t.isLt).2.1 (ix2 h q)) := by
    have := hst
    unfold St at this
    rw [← h4]
    exact hst
  rw [row_quot (xrow m c t q) (vrow m c t) q _ _ _ hinv h, G_apply]
  congr 1
  unfold attn xrow vrow
  exact congrArg₂ (· / ·)
    (sum_blocks fun k' => ((aV m c) (ix3 (bOf t) h k')).toReal * Real.exp (score (aQ m c) (aK m c) (aPE m c) (bOf t) (qcol (iOf t) q) k'))
    (sum_blocks fun k' => Real.exp (score (aQ m c) (aK m c) (aPE m c) (bOf t) (qcol (iOf t) q) k'))

end Cert.KernelIdeal.KernelValue

end
-- ==== Proof.lean ====
/-
  The certificate of a block-by-block ("online") softmax attention kernel against its plain reference.

  Inputs: query, key, value and a key positional term, each [16, 768, 2048] = [batch, hidden, position]; the
  contraction is over the hidden axis.  The reference forms the scores (∑ₕ q·k + ∑ₕ q·pe)·c for all 2048 × 2048
  (query, key) pairs of a batch, takes a softmax over the keys and averages the value rows with those weights.  The
  kernel visits, for each batch and each block of 1024 queries, the keys in four blocks of 512: it forms the score
  tile as one product ∑ₕ (k + pe)·(q·c), keeps a running maximum, a running sum of exponentials and a running
  weighted sum of the value rows, rescaling the latter two by exp(old maximum − new maximum) at every block, and
  divides once after the last block.

  Over the extended reals, with every input a real number (the precondition), both compute

      attn b h n = (∑ₘ v[b,h,m]·exp(score b n m)) / (∑ₘ exp(score b n m))            (Proof/Spec.lean),

  because a softmax is unchanged when one number is subtracted from every score of a row, so it does not matter
  that the kernel ends with the maximum it found block by block and the reference with the maximum of the whole
  row; only that both are real numbers, which keeps every exponent finite.  The parts:
    Spec            the function above;
    OnlineSoftmax   the block-by-block recursion and its invariant, over the reals inside the extended reals;
    Pieces          what each grid point leaves in the three carried buffers and the output block, as the body's
                    stored values;
    Payloads        those stored values read entry by entry;
    RowStep         one grid point, seen from one query column, is one step of the recursion;
    Blocks          which entries of the arrays a point's blocks hold, and the written-back blocks tiling the result;
    KernelScore     the kernel's one-product score is the reference's two-product score;
    KernelValue     induction along the grid points: the result array is the function above;
    Finite          the precondition makes every entry a real number;
    RefLaw, RefSide the reference's operations, one at a time, compute the function above;
    Claims          the five claims from these.
  The kernel's idealization rewrote nothing, so there is nothing to preserve; the three frames are the generated
  runs.
-/
import proofs.«138610_j63754494542004_2_alg».proof.Defs
import proofs.«138610_j63754494542004_2_alg».proof.Proof.Claims
import proofs.«138610_j63754494542004_2_alg».proof.Proof.KernelValue
import proofs.«138610_j63754494542004_2_alg».proof.Proof.Finite

noncomputable section

namespace Cert.Proof

open Idealize.ShloMosaic Idealize.SL.Sem
open Cert.KernelIdeal.KernelValue

/-- The kernel's run at the ideal instance: under the precondition every entry of the four arguments is a real
    number, so every point that writes a block back writes the specification's block, and those blocks tile the
    result array. -/
theorem kernel_run : Cert.Proof.Claims.KernelRun := fun m ρ hpre =>
  Cert.KernelIdeal.Blocks.run4 m ρ (fun c => Cert.Attn.G (aQ m c) (aK m c) (aV m c) (aPE m c)) fun c t h1 h q =>
    have hr := Cert.Attn.allReal_of_pre (aQ m c) (aK m c) (aV m c) (aPE m c) (hpre c)
    out_all m c hr.1 hr.2.1 hr.2.2.1 hr.2.2.2 t h1 h q

theorem claim : Cert.Claim := Cert.Proof.Claims.claim_of kernel_run

end Cert.Proof

end
